-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x112x112x64 : Shape := ⟨4, ![64, 112, 112, 64]⟩
abbrev S_ : Shape := ⟨0, ![]⟩

class Facts : Prop where
  bcast_S_S64x112x112x64 : S_.BroadcastsInDim S64x112x112x64 (![] : Fin 0 → Fin S64x112x112x64.rank)
  reducesTo_S64x112x112x64_S_d0_1_2_3 : S64x112x112x64.ReducesTo [0, 1, 2, 3] S_
  h_S_ : 0 < S_.numel

variable [Facts]

def fn {F : FTy → Type} [FloatOps F] (main_arg0 : FVec F S64x112x112x64 .f32) : IVec S_ 1 :=
  let main_v0 : FVec F S64x112x112x64 .f32 := Host.absf main_arg0
  let main_cst : FVec F S_ .f32 := constant S_ .f32 0x7F800000#32
  let main_v1 : FVec F S64x112x112x64 .f32 := broadcastInDim S64x112x112x64 ![] bcast_S_S64x112x112x64 main_cst
  let main_v2 : IVec S64x112x112x64 1 := cmpf .olt main_v0 main_v1
  let main_c : IVec S_ 1 := constantI S_ 1 1#1
  let main_v3 : IVec S_ 1 := (fun x v => Host.reduce IntOp.andi x v reducesTo_S64x112x112x64_S_d0_1_2_3 h_S_) main_v2 main_c
  main_v3
-- ==== Kernel.lean ====
abbrev S64x112x112x64 : Shape := ⟨4, ![64, 112, 112, 64]⟩
abbrev S802816x64 : Shape := ⟨2, ![802816, 64]⟩
abbrev S64x16x16 : Shape := ⟨3, ![64, 16, 16]⟩
abbrev S2048x64 : Shape := ⟨2, ![2048, 64]⟩
abbrev S64x2048 : Shape := ⟨2, ![64, 2048]⟩
abbrev S16x2048 : Shape := ⟨2, ![16, 2048]⟩
abbrev S2048x16 : Shape := ⟨2, ![2048, 16]⟩
abbrev S1x2048 : Shape := ⟨2, ![1, 2048]⟩
abbrev S2048x1 : Shape := ⟨2, ![2048, 1]⟩
abbrev S16x16 : Shape := ⟨2, ![16, 16]⟩
abbrev S1x16x16 : Shape := ⟨3, ![1, 16, 16]⟩
abbrev S64x256 : Shape := ⟨2, ![64, 256]⟩

abbrev nBuf : Space → Nat
  | .hbm => 4
  | .vmem => 3
  | .smem => 0
  | _ => 0

abbrev bufTy : (tb : Table) → Fin (tcTables nBuf tb) → BufTy
  | .hbm, ⟨0, _⟩ => ⟨S64x112x112x64, .f32⟩
  | .hbm, ⟨1, _⟩ => ⟨S802816x64, .f32⟩
  | .hbm, ⟨2, _⟩ => ⟨S64x16x16, .i32⟩
  | .hbm, ⟨3, _⟩ => ⟨S64x256, .i32⟩
  | .local _ .vmem, ⟨0, _⟩ => ⟨S2048x64, .f32⟩
  | .local _ .vmem, ⟨1, _⟩ => ⟨S2048x64, .f32⟩
  | .local _ .vmem, ⟨2, _⟩ => ⟨S64x16x16, .i32⟩
  | _, _ => ⟨S64x112x112x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![392], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S64x112x112x64_S802816x64 : S64x112x112x64.ShapeCasts S802816x64
  inb_S64x16x16_S64x16x16_0_0_0 : ∀ a, (![0, 0, 0] : Fin 3 → Nat) a + S64x16x16.size a ≤ S64x16x16.size a
  h_S64x16x16 : 0 < S64x16x16.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x64_p1_0_S64x2048 : S2048x64.Transposes [1, 0] S64x2048
  iota_S16x2048_d0_w32 : S16x2048.Iotas .tc 32 [0]
  iota_S2048x16_d1_w32 : S2048x16.Iotas .tc 32 [1]
  slices_S64x2048_o0_0_S1x2048 : S64x2048.Slices ![0, 0] S1x2048
  broadcasts_S1x2048_S16x2048 : S1x2048.Broadcasts S16x2048
  natLt_1_32 : 1 < 32
  bitsLt_bf16_f32 : FTy.bits .bf16 < FTy.bits .f32
  slices_S2048x64_o0_0_S2048x1 : S2048x64.Slices ![0, 0] S2048x1
  broadcasts_S2048x1_S2048x16 : S2048x1.Broadcasts S2048x16
  inb_S64x16x16_S1x16x16_0_0_0 : ∀ a, (![0, 0, 0] : Fin 3 → Nat) a + S1x16x16.size a ≤ S64x16x16.size a
  h_S1x16x16 : 0 < S1x16x16.numel
  shapeCasts_S1x16x16_S16x16 : S1x16x16.ShapeCasts S16x16
  shapeCasts_S16x16_S1x16x16 : S16x16.ShapeCasts S1x16x16
  slices_S64x2048_o1_0_S1x2048 : S64x2048.Slices ![1, 0] S1x2048
  slices_S2048x64_o0_1_S2048x1 : S2048x64.Slices ![0, 1] S2048x1
  inb_S64x16x16_S1x16x16_1_0_0 : ∀ a, (![1, 0, 0] : Fin 3 → Nat) a + S1x16x16.size a ≤ S64x16x16.size a
  slices_S64x2048_o2_0_S1x2048 : S64x2048.Slices ![2, 0] S1x2048
  slices_S2048x64_o0_2_S2048x1 : S2048x64.Slices ![0, 2] S2048x1
  inb_S64x16x16_S1x16x16_2_0_0 : ∀ a, (![2, 0, 0] : Fin 3 → Nat) a + S1x16x16.size a ≤ S64x16x16.size a
  slices_S64x2048_o3_0_S1x2048 : S64x2048.Slices ![3, 0] S1x2048
  slices_S2048x64_o0_3_S2048x1 : S2048x64.Slices ![0, 3] S2048x1
  inb_S64x16x16_S1x16x16_3_0_0 : ∀ a, (![3, 0, 0] : Fin 3 → Nat) a + S1x16x16.size a ≤ S64x16x16.size a
  slices_S64x2048_o4_0_S1x2048 : S64x2048.Slices ![4, 0] S1x2048
  slices_S2048x64_o0_4_S2048x1 : S2048x64.Slices ![0, 4] S2048x1
  inb_S64x16x16_S1x16x16_4_0_0 : ∀ a, (![4, 0, 0] : Fin 3 → Nat) a + S1x16x16.size a ≤ S64x16x16.size a
  slices_S64x2048_o5_0_S1x2048 : S64x2048.Slices ![5, 0] S1x2048
  slices_S2048x64_o0_5_S2048x1 : S2048x64.Slices ![0, 5] S2048x1
  inb_S64x16x16_S1x16x16_5_0_0 : ∀ a, (![5, 0, 0] : Fin 3 → Nat) a + S1x16x16.size a ≤ S64x16x16.size a
  slices_S64x2048_o6_0_S1x2048 : S64x2048.Slices ![6, 0] S1x2048
  slices_S2048x64_o0_6_S2048x1 : S2048x64.Slices ![0, 6] S2048x1
  inb_S64x16x16_S1x16x16_6_0_0 : ∀ a, (![6, 0, 0] : Fin 3 → Nat) a + S1x16x16.size a ≤ S64x16x16.size a
  slices_S64x2048_o7_0_S1x2048 : S64x2048.Slices ![7, 0] S1x2048
  slices_S2048x64_o0_7_S2048x1 : S2048x64.Slices ![0, 7] S2048x1
  inb_S64x16x16_S1x16x16_7_0_0 : ∀ a, (![7, 0, 0] : Fin 3 → Nat) a + S1x16x16.size a ≤ S64x16x16.size a
  slices_S64x2048_o8_0_S1x2048 : S64x2048.Slices ![8, 0] S1x2048
  slices_S2048x64_o0_8_S2048x1 : S2048x64.Slices ![0, 8] S2048x1
  inb_S64x16x16_S1x16x16_8_0_0 : ∀ a, (![8, 0, 0] : Fin 3 → Nat) a + S1x16x16.size a ≤ S64x16x16.size a
  slices_S64x2048_o9_0_S1x2048 : S64x2048.Slices ![9, 0] S1x2048
  slices_S2048x64_o0_9_S2048x1 : S2048x64.Slices ![0, 9] S2048x1
  inb_S64x16x16_S1x16x16_9_0_0 : ∀ a, (![9, 0, 0] : Fin 3 → Nat) a + S1x16x16.size a ≤ S64x16x16.size a
  slices_S64x2048_o10_0_S1x2048 : S64x2048.Slices ![10, 0] S1x2048
  slices_S2048x64_o0_10_S2048x1 : S2048x64.Slices ![0, 10] S2048x1
  inb_S64x16x16_S1x16x16_10_0_0 : ∀ a, (![10, 0, 0] : Fin 3 → Nat) a + S1x16x16.size a ≤ S64x16x16.size a
  slices_S64x2048_o11_0_S1x2048 : S64x2048.Slices ![11, 0] S1x2048
  slices_S2048x64_o0_11_S2048x1 : S2048x64.Slices ![0, 11] S2048x1
  inb_S64x16x16_S1x16x16_11_0_0 : ∀ a, (![11, 0, 0] : Fin 3 → Nat) a + S1x16x16.size a ≤ S64x16x16.size a
  slices_S64x2048_o12_0_S1x2048 : S64x2048.Slices ![12, 0] S1x2048
  slices_S2048x64_o0_12_S2048x1 : S2048x64.Slices ![0, 12] S2048x1
  inb_S64x16x16_S1x16x16_12_0_0 : ∀ a, (![12, 0, 0] : Fin 3 → Nat) a + S1x16x16.size a ≤ S64x16x16.size a
  slices_S64x2048_o13_0_S1x2048 : S64x2048.Slices ![13, 0] S1x2048
  slices_S2048x64_o0_13_S2048x1 : S2048x64.Slices ![0, 13] S2048x1
  inb_S64x16x16_S1x16x16_13_0_0 : ∀ a, (![13, 0, 0] : Fin 3 → Nat) a + S1x16x16.size a ≤ S64x16x16.size a
  slices_S64x2048_o14_0_S1x2048 : S64x2048.Slices ![14, 0] S1x2048
  slices_S2048x64_o0_14_S2048x1 : S2048x64.Slices ![0, 14] S2048x1
  inb_S64x16x16_S1x16x16_14_0_0 : ∀ a, (![14, 0, 0] : Fin 3 → Nat) a + S1x16x16.size a ≤ S64x16x16.size a
  slices_S64x2048_o15_0_S1x2048 : S64x2048.Slices ![15, 0] S1x2048
  slices_S2048x64_o0_15_S2048x1 : S2048x64.Slices ![0, 15] S2048x1
  inb_S64x16x16_S1x16x16_15_0_0 : ∀ a, (![15, 0, 0] : Fin 3 → Nat) a + S1x16x16.size a ≤ S64x16x16.size a
  slices_S64x2048_o16_0_S1x2048 : S64x2048.Slices ![16, 0] S1x2048
  slices_S2048x64_o0_16_S2048x1 : S2048x64.Slices ![0, 16] S2048x1
  inb_S64x16x16_S1x16x16_16_0_0 : ∀ a, (![16, 0, 0] : Fin 3 → Nat) a + S1x16x16.size a ≤ S64x16x16.size a
  slices_S64x2048_o17_0_S1x2048 : S64x2048.Slices ![17, 0] S1x2048
  slices_S2048x64_o0_17_S2048x1 : S2048x64.Slices ![0, 17] S2048x1
  inb_S64x16x16_S1x16x16_17_0_0 : ∀ a, (![17, 0, 0] : Fin 3 → Nat) a + S1x16x16.size a ≤ S64x16x16.size a
  slices_S64x2048_o18_0_S1x2048 : S64x2048.Slices ![18, 0] S1x2048
  slices_S2048x64_o0_18_S2048x1 : S2048x64.Slices ![0, 18] S2048x1
  inb_S64x16x16_S1x16x16_18_0_0 : ∀ a, (![18, 0, 0] : Fin 3 → Nat) a + S1x16x16.size a ≤ S64x16x16.size a
  slices_S64x2048_o19_0_S1x2048 : S64x2048.Slices ![19, 0] S1x2048
  slices_S2048x64_o0_19_S2048x1 : S2048x64.Slices ![0, 19] S2048x1
  inb_S64x16x16_S1x16x16_19_0_0 : ∀ a, (![19, 0, 0] : Fin 3 → Nat) a + S1x16x16.size a ≤ S64x16x16.size a
  slices_S64x2048_o20_0_S1x2048 : S64x2048.Slices ![20, 0] S1x2048
  slices_S2048x64_o0_20_S2048x1 : S2048x64.Slices ![0, 20] S2048x1
  inb_S64x16x16_S1x16x16_20_0_0 : ∀ a, (![20, 0, 0] : Fin 3 → Nat) a + S1x16x16.size a ≤ S64x16x16.size a
  slices_S64x2048_o21_0_S1x2048 : S64x2048.Slices ![21, 0] S1x2048
  slices_S2048x64_o0_21_S2048x1 : S2048x64.Slices ![0, 21] S2048x1
  inb_S64x16x16_S1x16x16_21_0_0 : ∀ a, (![21, 0, 0] : Fin 3 → Nat) a + S1x16x16.size a ≤ S64x16x16.size a
  slices_S64x2048_o22_0_S1x2048 : S64x2048.Slices ![22, 0] S1x2048
  slices_S2048x64_o0_22_S2048x1 : S2048x64.Slices ![0, 22] S2048x1
  inb_S64x16x16_S1x16x16_22_0_0 : ∀ a, (![22, 0, 0] : Fin 3 → Nat) a + S1x16x16.size a ≤ S64x16x16.size a
  slices_S64x2048_o23_0_S1x2048 : S64x2048.Slices ![23, 0] S1x2048
  slices_S2048x64_o0_23_S2048x1 : S2048x64.Slices ![0, 23] S2048x1
  inb_S64x16x16_S1x16x16_23_0_0 : ∀ a, (![23, 0, 0] : Fin 3 → Nat) a + S1x16x16.size a ≤ S64x16x16.size a
  slices_S64x2048_o24_0_S1x2048 : S64x2048.Slices ![24, 0] S1x2048
  slices_S2048x64_o0_24_S2048x1 : S2048x64.Slices ![0, 24] S2048x1
  inb_S64x16x16_S1x16x16_24_0_0 : ∀ a, (![24, 0, 0] : Fin 3 → Nat) a + S1x16x16.size a ≤ S64x16x16.size a
  slices_S64x2048_o25_0_S1x2048 : S64x2048.Slices ![25, 0] S1x2048
  slices_S2048x64_o0_25_S2048x1 : S2048x64.Slices ![0, 25] S2048x1
  inb_S64x16x16_S1x16x16_25_0_0 : ∀ a, (![25, 0, 0] : Fin 3 → Nat) a + S1x16x16.size a ≤ S64x16x16.size a
  slices_S64x2048_o26_0_S1x2048 : S64x2048.Slices ![26, 0] S1x2048
  slices_S2048x64_o0_26_S2048x1 : S2048x64.Slices ![0, 26] S2048x1
  inb_S64x16x16_S1x16x16_26_0_0 : ∀ a, (![26, 0, 0] : Fin 3 → Nat) a + S1x16x16.size a ≤ S64x16x16.size a
  slices_S64x2048_o27_0_S1x2048 : S64x2048.Slices ![27, 0] S1x2048
  slices_S2048x64_o0_27_S2048x1 : S2048x64.Slices ![0, 27] S2048x1
  inb_S64x16x16_S1x16x16_27_0_0 : ∀ a, (![27, 0, 0] : Fin 3 → Nat) a + S1x16x16.size a ≤ S64x16x16.size a
  slices_S64x2048_o28_0_S1x2048 : S64x2048.Slices ![28, 0] S1x2048
  slices_S2048x64_o0_28_S2048x1 : S2048x64.Slices ![0, 28] S2048x1
  inb_S64x16x16_S1x16x16_28_0_0 : ∀ a, (![28, 0, 0] : Fin 3 → Nat) a + S1x16x16.size a ≤ S64x16x16.size a
  slices_S64x2048_o29_0_S1x2048 : S64x2048.Slices ![29, 0] S1x2048
  slices_S2048x64_o0_29_S2048x1 : S2048x64.Slices ![0, 29] S2048x1
  inb_S64x16x16_S1x16x16_29_0_0 : ∀ a, (![29, 0, 0] : Fin 3 → Nat) a + S1x16x16.size a ≤ S64x16x16.size a
  slices_S64x2048_o30_0_S1x2048 : S64x2048.Slices ![30, 0] S1x2048
  slices_S2048x64_o0_30_S2048x1 : S2048x64.Slices ![0, 30] S2048x1
  inb_S64x16x16_S1x16x16_30_0_0 : ∀ a, (![30, 0, 0] : Fin 3 → Nat) a + S1x16x16.size a ≤ S64x16x16.size a
  slices_S64x2048_o31_0_S1x2048 : S64x2048.Slices ![31, 0] S1x2048
  slices_S2048x64_o0_31_S2048x1 : S2048x64.Slices ![0, 31] S2048x1
  inb_S64x16x16_S1x16x16_31_0_0 : ∀ a, (![31, 0, 0] : Fin 3 → Nat) a + S1x16x16.size a ≤ S64x16x16.size a
  slices_S64x2048_o32_0_S1x2048 : S64x2048.Slices ![32, 0] S1x2048
  slices_S2048x64_o0_32_S2048x1 : S2048x64.Slices ![0, 32] S2048x1
  inb_S64x16x16_S1x16x16_32_0_0 : ∀ a, (![32, 0, 0] : Fin 3 → Nat) a + S1x16x16.size a ≤ S64x16x16.size a
  slices_S64x2048_o33_0_S1x2048 : S64x2048.Slices ![33, 0] S1x2048
  slices_S2048x64_o0_33_S2048x1 : S2048x64.Slices ![0, 33] S2048x1
  inb_S64x16x16_S1x16x16_33_0_0 : ∀ a, (![33, 0, 0] : Fin 3 → Nat) a + S1x16x16.size a ≤ S64x16x16.size a
  slices_S64x2048_o34_0_S1x2048 : S64x2048.Slices ![34, 0] S1x2048
  slices_S2048x64_o0_34_S2048x1 : S2048x64.Slices ![0, 34] S2048x1
  inb_S64x16x16_S1x16x16_34_0_0 : ∀ a, (![34, 0, 0] : Fin 3 → Nat) a + S1x16x16.size a ≤ S64x16x16.size a
  slices_S64x2048_o35_0_S1x2048 : S64x2048.Slices ![35, 0] S1x2048
  slices_S2048x64_o0_35_S2048x1 : S2048x64.Slices ![0, 35] S2048x1
  inb_S64x16x16_S1x16x16_35_0_0 : ∀ a, (![35, 0, 0] : Fin 3 → Nat) a + S1x16x16.size a ≤ S64x16x16.size a
  slices_S64x2048_o36_0_S1x2048 : S64x2048.Slices ![36, 0] S1x2048
  slices_S2048x64_o0_36_S2048x1 : S2048x64.Slices ![0, 36] S2048x1
  inb_S64x16x16_S1x16x16_36_0_0 : ∀ a, (![36, 0, 0] : Fin 3 → Nat) a + S1x16x16.size a ≤ S64x16x16.size a
  slices_S64x2048_o37_0_S1x2048 : S64x2048.Slices ![37, 0] S1x2048
  slices_S2048x64_o0_37_S2048x1 : S2048x64.Slices ![0, 37] S2048x1
  inb_S64x16x16_S1x16x16_37_0_0 : ∀ a, (![37, 0, 0] : Fin 3 → Nat) a + S1x16x16.size a ≤ S64x16x16.size a
  slices_S64x2048_o38_0_S1x2048 : S64x2048.Slices ![38, 0] S1x2048
  slices_S2048x64_o0_38_S2048x1 : S2048x64.Slices ![0, 38] S2048x1
  inb_S64x16x16_S1x16x16_38_0_0 : ∀ a, (![38, 0, 0] : Fin 3 → Nat) a + S1x16x16.size a ≤ S64x16x16.size a
  slices_S64x2048_o39_0_S1x2048 : S64x2048.Slices ![39, 0] S1x2048
  slices_S2048x64_o0_39_S2048x1 : S2048x64.Slices ![0, 39] S2048x1
  inb_S64x16x16_S1x16x16_39_0_0 : ∀ a, (![39, 0, 0] : Fin 3 → Nat) a + S1x16x16.size a ≤ S64x16x16.size a
  slices_S64x2048_o40_0_S1x2048 : S64x2048.Slices ![40, 0] S1x2048
  slices_S2048x64_o0_40_S2048x1 : S2048x64.Slices ![0, 40] S2048x1
  inb_S64x16x16_S1x16x16_40_0_0 : ∀ a, (![40, 0, 0] : Fin 3 → Nat) a + S1x16x16.size a ≤ S64x16x16.size a
  slices_S64x2048_o41_0_S1x2048 : S64x2048.Slices ![41, 0] S1x2048
  slices_S2048x64_o0_41_S2048x1 : S2048x64.Slices ![0, 41] S2048x1
  inb_S64x16x16_S1x16x16_41_0_0 : ∀ a, (![41, 0, 0] : Fin 3 → Nat) a + S1x16x16.size a ≤ S64x16x16.size a
  slices_S64x2048_o42_0_S1x2048 : S64x2048.Slices ![42, 0] S1x2048
  slices_S2048x64_o0_42_S2048x1 : S2048x64.Slices ![0, 42] S2048x1
  inb_S64x16x16_S1x16x16_42_0_0 : ∀ a, (![42, 0, 0] : Fin 3 → Nat) a + S1x16x16.size a ≤ S64x16x16.size a
  slices_S64x2048_o43_0_S1x2048 : S64x2048.Slices ![43, 0] S1x2048
  slices_S2048x64_o0_43_S2048x1 : S2048x64.Slices ![0, 43] S2048x1
  inb_S64x16x16_S1x16x16_43_0_0 : ∀ a, (![43, 0, 0] : Fin 3 → Nat) a + S1x16x16.size a ≤ S64x16x16.size a
  slices_S64x2048_o44_0_S1x2048 : S64x2048.Slices ![44, 0] S1x2048
  slices_S2048x64_o0_44_S2048x1 : S2048x64.Slices ![0, 44] S2048x1
  inb_S64x16x16_S1x16x16_44_0_0 : ∀ a, (![44, 0, 0] : Fin 3 → Nat) a + S1x16x16.size a ≤ S64x16x16.size a
  slices_S64x2048_o45_0_S1x2048 : S64x2048.Slices ![45, 0] S1x2048
  slices_S2048x64_o0_45_S2048x1 : S2048x64.Slices ![0, 45] S2048x1
  inb_S64x16x16_S1x16x16_45_0_0 : ∀ a, (![45, 0, 0] : Fin 3 → Nat) a + S1x16x16.size a ≤ S64x16x16.size a
  slices_S64x2048_o46_0_S1x2048 : S64x2048.Slices ![46, 0] S1x2048
  slices_S2048x64_o0_46_S2048x1 : S2048x64.Slices ![0, 46] S2048x1
  inb_S64x16x16_S1x16x16_46_0_0 : ∀ a, (![46, 0, 0] : Fin 3 → Nat) a + S1x16x16.size a ≤ S64x16x16.size a
  slices_S64x2048_o47_0_S1x2048 : S64x2048.Slices ![47, 0] S1x2048
  slices_S2048x64_o0_47_S2048x1 : S2048x64.Slices ![0, 47] S2048x1
  inb_S64x16x16_S1x16x16_47_0_0 : ∀ a, (![47, 0, 0] : Fin 3 → Nat) a + S1x16x16.size a ≤ S64x16x16.size a
  slices_S64x2048_o48_0_S1x2048 : S64x2048.Slices ![48, 0] S1x2048
  slices_S2048x64_o0_48_S2048x1 : S2048x64.Slices ![0, 48] S2048x1
  inb_S64x16x16_S1x16x16_48_0_0 : ∀ a, (![48, 0, 0] : Fin 3 → Nat) a + S1x16x16.size a ≤ S64x16x16.size a
  slices_S64x2048_o49_0_S1x2048 : S64x2048.Slices ![49, 0] S1x2048
  slices_S2048x64_o0_49_S2048x1 : S2048x64.Slices ![0, 49] S2048x1
  inb_S64x16x16_S1x16x16_49_0_0 : ∀ a, (![49, 0, 0] : Fin 3 → Nat) a + S1x16x16.size a ≤ S64x16x16.size a
  slices_S64x2048_o50_0_S1x2048 : S64x2048.Slices ![50, 0] S1x2048
  slices_S2048x64_o0_50_S2048x1 : S2048x64.Slices ![0, 50] S2048x1
  inb_S64x16x16_S1x16x16_50_0_0 : ∀ a, (![50, 0, 0] : Fin 3 → Nat) a + S1x16x16.size a ≤ S64x16x16.size a
  slices_S64x2048_o51_0_S1x2048 : S64x2048.Slices ![51, 0] S1x2048
  slices_S2048x64_o0_51_S2048x1 : S2048x64.Slices ![0, 51] S2048x1
  inb_S64x16x16_S1x16x16_51_0_0 : ∀ a, (![51, 0, 0] : Fin 3 → Nat) a + S1x16x16.size a ≤ S64x16x16.size a
  slices_S64x2048_o52_0_S1x2048 : S64x2048.Slices ![52, 0] S1x2048
  slices_S2048x64_o0_52_S2048x1 : S2048x64.Slices ![0, 52] S2048x1
  inb_S64x16x16_S1x16x16_52_0_0 : ∀ a, (![52, 0, 0] : Fin 3 → Nat) a + S1x16x16.size a ≤ S64x16x16.size a
  slices_S64x2048_o53_0_S1x2048 : S64x2048.Slices ![53, 0] S1x2048
  slices_S2048x64_o0_53_S2048x1 : S2048x64.Slices ![0, 53] S2048x1
  inb_S64x16x16_S1x16x16_53_0_0 : ∀ a, (![53, 0, 0] : Fin 3 → Nat) a + S1x16x16.size a ≤ S64x16x16.size a
  slices_S64x2048_o54_0_S1x2048 : S64x2048.Slices ![54, 0] S1x2048
  slices_S2048x64_o0_54_S2048x1 : S2048x64.Slices ![0, 54] S2048x1
  inb_S64x16x16_S1x16x16_54_0_0 : ∀ a, (![54, 0, 0] : Fin 3 → Nat) a + S1x16x16.size a ≤ S64x16x16.size a
  slices_S64x2048_o55_0_S1x2048 : S64x2048.Slices ![55, 0] S1x2048
  slices_S2048x64_o0_55_S2048x1 : S2048x64.Slices ![0, 55] S2048x1
  inb_S64x16x16_S1x16x16_55_0_0 : ∀ a, (![55, 0, 0] : Fin 3 → Nat) a + S1x16x16.size a ≤ S64x16x16.size a
  slices_S64x2048_o56_0_S1x2048 : S64x2048.Slices ![56, 0] S1x2048
  slices_S2048x64_o0_56_S2048x1 : S2048x64.Slices ![0, 56] S2048x1
  inb_S64x16x16_S1x16x16_56_0_0 : ∀ a, (![56, 0, 0] : Fin 3 → Nat) a + S1x16x16.size a ≤ S64x16x16.size a
  slices_S64x2048_o57_0_S1x2048 : S64x2048.Slices ![57, 0] S1x2048
  slices_S2048x64_o0_57_S2048x1 : S2048x64.Slices ![0, 57] S2048x1
  inb_S64x16x16_S1x16x16_57_0_0 : ∀ a, (![57, 0, 0] : Fin 3 → Nat) a + S1x16x16.size a ≤ S64x16x16.size a
  slices_S64x2048_o58_0_S1x2048 : S64x2048.Slices ![58, 0] S1x2048
  slices_S2048x64_o0_58_S2048x1 : S2048x64.Slices ![0, 58] S2048x1
  inb_S64x16x16_S1x16x16_58_0_0 : ∀ a, (![58, 0, 0] : Fin 3 → Nat) a + S1x16x16.size a ≤ S64x16x16.size a
  slices_S64x2048_o59_0_S1x2048 : S64x2048.Slices ![59, 0] S1x2048
  slices_S2048x64_o0_59_S2048x1 : S2048x64.Slices ![0, 59] S2048x1
  inb_S64x16x16_S1x16x16_59_0_0 : ∀ a, (![59, 0, 0] : Fin 3 → Nat) a + S1x16x16.size a ≤ S64x16x16.size a
  slices_S64x2048_o60_0_S1x2048 : S64x2048.Slices ![60, 0] S1x2048
  slices_S2048x64_o0_60_S2048x1 : S2048x64.Slices ![0, 60] S2048x1
  inb_S64x16x16_S1x16x16_60_0_0 : ∀ a, (![60, 0, 0] : Fin 3 → Nat) a + S1x16x16.size a ≤ S64x16x16.size a
  slices_S64x2048_o61_0_S1x2048 : S64x2048.Slices ![61, 0] S1x2048
  slices_S2048x64_o0_61_S2048x1 : S2048x64.Slices ![0, 61] S2048x1
  inb_S64x16x16_S1x16x16_61_0_0 : ∀ a, (![61, 0, 0] : Fin 3 → Nat) a + S1x16x16.size a ≤ S64x16x16.size a
  slices_S64x2048_o62_0_S1x2048 : S64x2048.Slices ![62, 0] S1x2048
  slices_S2048x64_o0_62_S2048x1 : S2048x64.Slices ![0, 62] S2048x1
  inb_S64x16x16_S1x16x16_62_0_0 : ∀ a, (![62, 0, 0] : Fin 3 → Nat) a + S1x16x16.size a ≤ S64x16x16.size a
  slices_S64x2048_o63_0_S1x2048 : S64x2048.Slices ![63, 0] S1x2048
  slices_S2048x64_o0_63_S2048x1 : S2048x64.Slices ![0, 63] S2048x1
  inb_S64x16x16_S1x16x16_63_0_0 : ∀ a, (![63, 0, 0] : Fin 3 → Nat) a + S1x16x16.size a ≤ S64x16x16.size a
  shapeCasts_S64x16x16_S64x256 : S64x16x16.ShapeCasts S64x256
  dot_S16x2048_S2048x16_S16x16_1_0_0_1_n_n_wf : DotDims.WF S16x2048 S2048x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S802816x64.size a
  hwx0_0 : ∀ i : grid0.Coords, EltTy.bits .f32 = 32 ∨ (Rect.block (s := S802816x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16x16.size a ≤ S64x16x16.size a
  hwx0_1 : ∀ i : grid0.Coords, EltTy.bits .i32 = 32 ∨ (Rect.block (s := S64x16x16) S64x16x16.size (cc0_transform_1 i) (hinb0_1 i)).WholeWords (EltTy.packing .i32)

variable [Facts₀]

def dot_S16x2048_S2048x16_S16x16_1_0_0_1_n_n : DotDims S16x2048 S2048x16 S16x16 where
  lhsContracting := [1]
  rhsContracting := [0]
  lhsNonContracting := [0]
  rhsNonContracting := [1]
  lhsBatch := []
  rhsBatch := []
  wf := dot_S16x2048_S2048x16_S16x16_1_0_0_1_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x16x16.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x112x112x64 : Shape := ⟨4, ![64, 112, 112, 64]⟩
abbrev S_ : Shape := ⟨0, ![]⟩
abbrev S64 : Shape := ⟨1, ![64]⟩
abbrev S1x1x1x64 : Shape := ⟨4, ![1, 1, 1, 64]⟩
abbrev S16384 : Shape := ⟨1, ![16384]⟩
abbrev S51380224 : Shape := ⟨1, ![51380224]⟩
abbrev S51380224x1 : Shape := ⟨2, ![51380224, 1]⟩
abbrev S64x256 : Shape := ⟨2, ![64, 256]⟩

abbrev nBuf : Space → Nat
  | .hbm => 39
  | .vmem => 0
  | .smem => 0
  | _ => 0

abbrev bufTy : (tb : Table) → Fin (tcTables nBuf tb) → BufTy
  | .hbm, ⟨0, _⟩ => ⟨S64x112x112x64, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S64x112x112x64, .f32⟩
  | .hbm, ⟨5, _⟩ => ⟨S64x112x112x64, .f32⟩
  | .hbm, ⟨6, _⟩ => ⟨S_, .f32⟩
  | .hbm, ⟨7, _⟩ => ⟨S64x112x112x64, .f32⟩
  | .hbm, ⟨8, _⟩ => ⟨S64x112x112x64, .f32⟩
  | .hbm, ⟨9, _⟩ => ⟨S_, .f32⟩
  | .hbm, ⟨10, _⟩ => ⟨S_, .f32⟩
  | .hbm, ⟨11, _⟩ => ⟨S64x112x112x64, .f32⟩
  | .hbm, ⟨12, _⟩ => ⟨S64x112x112x64, .f32⟩
  | .hbm, ⟨13, _⟩ => ⟨S64x112x112x64, .i32⟩
  | .hbm, ⟨14, _⟩ => ⟨S_, .i32⟩
  | .hbm, ⟨15, _⟩ => ⟨S64x112x112x64, .i32⟩
  | .hbm, ⟨16, _⟩ => ⟨S64x112x112x64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S1x1x1x64, .i32⟩
  | .hbm, ⟨22, _⟩ => ⟨S64x112x112x64, .i32⟩
  | .hbm, ⟨23, _⟩ => ⟨S64x112x112x64, .i32⟩
  | .hbm, ⟨24, _⟩ => ⟨S_, .i32⟩
  | .hbm, ⟨25, _⟩ => ⟨S16384, .i32⟩
  | .hbm, ⟨26, _⟩ => ⟨S51380224, .i32⟩
  | .hbm, ⟨27, _⟩ => ⟨S_, .i32⟩
  | .hbm, ⟨28, _⟩ => ⟨S51380224, .i32⟩
  | .hbm, ⟨29, _⟩ => ⟨S51380224, .i1⟩
  | .hbm, ⟨30, _⟩ => ⟨S_, .i32⟩
  | .hbm, ⟨31, _⟩ => ⟨S51380224, .i32⟩
  | .hbm, ⟨32, _⟩ => ⟨S51380224, .i32⟩
  | .hbm, ⟨33, _⟩ => ⟨S51380224, .i32⟩
  | .hbm, ⟨34, _⟩ => ⟨S51380224x1, .i32⟩
  | .hbm, ⟨35, _⟩ => ⟨S_, .i32⟩
  | .hbm, ⟨36, _⟩ => ⟨S51380224, .i32⟩
  | .hbm, ⟨37, _⟩ => ⟨S16384, .i32⟩
  | .hbm, ⟨38, _⟩ => ⟨S64x256, .i32⟩
  | _, _ => ⟨S64x112x112x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S64x112x112x64 : S_.BroadcastsInDim S64x112x112x64 (![] : Fin 0 → Fin S64x112x112x64.rank)
  bcast_S_S64 : S_.BroadcastsInDim S64 (![] : Fin 0 → Fin S64.rank)
  bcast_S64_S1x1x1x64_3 : S64.BroadcastsInDim S1x1x1x64 (![3] : Fin 1 → Fin S1x1x1x64.rank)
  bcast_S1x1x1x64_S64x112x112x64_0_1_2_3 : S1x1x1x64.BroadcastsInDim S64x112x112x64 (![0, 1, 2, 3] : Fin 4 → Fin S64x112x112x64.rank)
  bcast_S_S16384 : S_.BroadcastsInDim S16384 (![] : Fin 0 → Fin S16384.rank)
  shapeCasts_S64x112x112x64_S51380224 : S64x112x112x64.ShapeCasts S51380224
  bcast_S_S51380224 : S_.BroadcastsInDim S51380224 (![] : Fin 0 → Fin S51380224.rank)
  bcast_S51380224_S51380224x1_0 : S51380224.BroadcastsInDim S51380224x1 (![0] : Fin 1 → Fin S51380224x1.rank)
  shapeCasts_S16384_S64x256 : S16384.ShapeCasts S64x256
  scatter_S16384_S51380224x1_S51380224_n_0_0_1_wf : ScatterDims.WF S16384 S51380224x1 S51380224 [] [0] [0] 1

variable [Facts₀]

def scatter_S16384_S51380224x1_S51380224_n_0_0_1 : ScatterDims S16384 S51380224x1 S51380224 where
  updateWindowDims := []
  insertedWindowDims := [0]
  scatterDimsToOperandDims := [0]
  indexVectorDim := 1
  wf := scatter_S16384_S51380224x1_S51380224_n_0_0_1_wf

class Facts : Prop extends Facts₀ where

variable [Facts]
-- ==== Proof.BinCount.lean ====
/-
  The histogram's arithmetic, free of any program.

  One activation x falls in the bin  b(x) = min(trunc(max(0, (x + 3) · s)), 255)  (s the binary value of the printed
  scale word), a 32-bit word between 0 and 255 whatever extended real x is: the maximum with 0 makes the argument of
  the truncation non-negative, the truncation to a signed word clamps, and the signed minimum with 255 caps it.
  The input array is read flat, in row-major order: position r · 64 + ch is row r (a batch-and-pixel position) of
  channel ch.  cnt counts, among the first R rows, those whose channel-ch activation falls in bin k; the table is the
  counts of all 802816 rows, as 32-bit words.
-/
import Idealize.ShloMosaic.PureOps.Ideal
import Idealize.ShloMosaic.PureOps.Ideal.Laws
import Idealize.ShloMosaic.Lib.ValueIdx
import Idealize.ShloMosaic.Lib.Pipeline.Value

noncomputable section

namespace Hist

open Idealize.ShloMosaic

/-- The bin word of one activation. -/
def bin (x : EReal) : BitVec 32 :=
  IntOp.minsi (Ideal.fptosi 32 (max (Ideal.ofBits .f32 0x00000000#32)
    ((x - Ideal.ofBits .f32 0xC0400000#32) * Ideal.ofBits .f32 0x422AAAAB#32))) 255#32

/-- Truncating a non-negative extended real, clamped to [lo, hi] with lo ≤ 0 ≤ hi, gives an integer in [0, hi]:
    −∞ is not non-negative, +∞ goes to hi, and a real r ≥ 0 goes to its floor ≥ 0, capped at hi. -/
theorem toIntClamped_of_nonneg {lo hi : ℤ} (hlo : lo ≤ 0) (hhi : 0 ≤ hi) {y : EReal} (hy : 0 ≤ y) :
    0 ≤ Ideal.toIntClamped lo hi y ∧ Ideal.toIntClamped lo hi y ≤ hi := by
  induction y using EReal.rec with
  | bot => exact absurd hy (not_le.mpr EReal.bot_lt_zero)
  | top => rw [Ideal.toIntClamped_top]; exact ⟨hhi, le_refl _⟩
  | coe r =>
    have hr : 0 ≤ r := EReal.coe_nonneg.mp hy
    have hf : 0 ≤ ⌊r⌋ := Int.floor_nonneg.mpr hr
    rw [Ideal.toIntClamped_coe, if_pos hr]
    omega

/-- A bin word is between 0 and 255. -/
theorem bin_toNat_le (x : EReal) : (bin x).toNat ≤ 255 := by
  unfold bin
  rw [Ideal.ofBits_zero_f32]
  generalize (x - Ideal.ofBits .f32 0xC0400000#32) * Ideal.ofBits .f32 0x422AAAAB#32 = A
  -- the truncation's argument is a maximum with 0, so the truncated integer z has 0 ≤ z ≤ 2³¹ − 1
  have hy : (0 : EReal) ≤ max 0 A := le_max_left 0 A
  obtain ⟨h0, h1⟩ := toIntClamped_of_nonneg (lo := -((2 ^ (32 - 1) : ℕ) : ℤ)) (hi := ((2 ^ (32 - 1) : ℕ) : ℤ) - 1)
    (by norm_num) (by norm_num) hy
  unfold Ideal.fptosi
  generalize Ideal.toIntClamped (-((2 ^ (32 - 1) : ℕ) : ℤ)) (((2 ^ (32 - 1) : ℕ) : ℤ) - 1) (max 0 A) = z at h0 h1
  norm_num at h1
  -- the word of z reads z, signed and unsigned
  have hI : (BitVec.ofInt 32 z).toInt = z :=
    BitVec.toInt_ofInt_eq_self (by decide) (by norm_num; omega) (by norm_num; omega)
  have hN : (BitVec.ofInt 32 z).toNat = z.toNat := by
    rw [BitVec.toNat_ofInt]
    norm_num
    omega
  -- the signed minimum with 255: either z < 255 and the word is z, or the word is 255
  unfold IntOp.minsi
  split
  · rename_i hs
    rw [BitVec.slt_iff_toInt_lt, hI] at hs
    have h255 : (255#32 : BitVec 32).toInt = 255 := by decide
    rw [h255] at hs
    rw [hN]
    omega
  · decide

/-- The pattern 0x3F800000 (sign 0, exponent 127, fraction 0) denotes 2²³ · 2^(127 − 127 − 23) = 1. -/
theorem ofBits_one_f32 : Ideal.ofBits .f32 0x3F800000#32 = 1 := by
  simp [Ideal.ofBits, Ideal.ieee, -EReal.coe_mul]; norm_num

/-- The pattern of 1.0 denotes 1, so the reference's offset (−3) · 1 is the kernel's −3. -/
theorem neg3_mul_one :
    Ideal.ofBits .f32 0xC0400000#32 * Ideal.ofBits .f32 0x3F800000#32 = Ideal.ofBits .f32 0xC0400000#32 := by
  rw [ofBits_one_f32, mul_one]

/-- An array read flat: position p in row-major order (0 past the end). -/
def flat {s : Shape} (x : s.Idx → EReal) (p : ℕ) : EReal :=
  if h : p < s.numel then x (s.rowMajor.symm ⟨p, h⟩) else 0

theorem flat_rowMajor {s : Shape} (x : s.Idx → EReal) (j : s.Idx) : flat x (s.rowMajor j).val = x j := by
  unfold flat
  rw [dif_pos (s.rowMajor j).isLt]
  exact congrArg x (s.rowMajor.symm_apply_apply j)

/-- A reshape read at an index is the operand read flat at the index's row-major position. -/
theorem shapeCast_eq_flat {s t : Shape} (x : s.Idx → EReal) (h : s.ShapeCasts t) (j : t.Idx) :
    shapeCast t x h j = flat x (t.rowMajor j).val := by
  -- the two shapes have the same number of elements, so j's position is a position of the operand
  have hlt : (t.rowMajor j).val < s.numel := h ▸ (t.rowMajor j).isLt
  unfold flat
  rw [dif_pos hlt]
  exact shapeCast_apply x h j _ (by rw [Equiv.apply_symm_apply])

/-- Row r of channel ch falls in bin k: 1 or 0. -/
def hit (xf : ℕ → EReal) (ch k r : ℕ) : ℕ := if bin (xf (r * 64 + ch)) = BitVec.ofNat 32 k then 1 else 0

/-- How many of the first R rows of channel ch fall in bin k. -/
def cnt (xf : ℕ → EReal) (ch k R : ℕ) : ℕ := ∑ r ∈ Finset.range R, hit xf ch k r

/-- The count over R + B rows is the count over the first R plus the count over the next B. -/
theorem cnt_add (xf : ℕ → EReal) (ch k R B : ℕ) :
    cnt xf ch k (R + B) = cnt xf ch k R + ∑ n ∈ Finset.range B, hit xf ch k (R + n) := by
  unfold cnt
  exact Finset.sum_range_add _ R B

/-- The histogram of all 802816 rows: entry (ch, k) is the count of channel ch in bin k, as a 32-bit word. -/
def table (xf : ℕ → EReal) : (⟨2, ![64, 256]⟩ : Shape).Idx → BitVec 32 :=
  fun i => BitVec.ofNat 32 (cnt xf (i 0).val (i 1).val 802816)

/-! ## The two nibbles of a bin word, and a block's count as a contraction of two one-hot encodings -/

/-- For a word b ≤ 255: its high nibble is h and its low nibble is l exactly when b = 16 h + l. -/
theorem nibbles_iff (b : BitVec 32) (hb : b.toNat ≤ 255) (h l : ℕ) (hh : h < 16) (hl : l < 16) :
    (BitVec.ofNat 32 h = IntOp.shrsi .vector b 4#32 ∧ BitVec.ofNat 32 l = IntOp.andi b 15#32)
      ↔ b = BitVec.ofNat 32 (16 * h + l) := by
  have hmsb : b.msb = false := BitVec.msb_eq_false_iff_two_mul_lt.mpr (by omega)
  -- the sign bit is clear, so the arithmetic shift by 4 is the division by 16
  have hhi : (IntOp.shrsi .vector b 4#32).toNat = b.toNat / 16 := by
    unfold IntOp.shrsi
    rw [if_pos (by decide), BitVec.toNat_sshiftRight'_of_msb_false hmsb]
    show b.toNat >>> 4 = b.toNat / 16
    rw [Nat.shiftRight_eq_div_pow]
  -- the mask 15 = 2⁴ − 1 keeps the remainder modulo 16
  have hlo : (IntOp.andi b 15#32).toNat = b.toNat % 16 := by
    unfold IntOp.andi
    rw [BitVec.toNat_and]
    show b.toNat &&& (2 ^ 4 - 1) = b.toNat % 16
    rw [Nat.and_two_pow_sub_one_eq_mod]
  -- compare the words through their values: h = b / 16 and l = b % 16 exactly when b = 16 h + l
  rw [← BitVec.toNat_inj, ← BitVec.toNat_inj, ← BitVec.toNat_inj (x := b), hhi, hlo,
    BitVec.toNat_ofNat, BitVec.toNat_ofNat, BitVec.toNat_ofNat]
  omega

/-- A comparison bit widened to a word and read as a signed integer, as an extended real: 1 when the two words are
    equal, else 0. -/
theorem onehot_eq (a c : BitVec 32) :
    (((BitVec.setWidth 32 (IntOp.cmpi .eq a c)).toInt : ℝ) : EReal) = if a = c then 1 else 0 := by
  have h1 : (BitVec.setWidth 32 (BitVec.ofBool true)).toInt = 1 := by decide
  have h0 : (BitVec.setWidth 32 (BitVec.ofBool false)).toInt = 0 := by decide
  unfold IntOp.cmpi
  by_cases hac : a = c
  · have hb : (a == c) = true := by simp [hac]
    simp only [hb, h1, if_pos hac]
    norm_num
  · have hb : (a == c) = false := by simp [hac]
    simp only [hb, h0, if_neg hac]
    norm_num

/-- The coercion of the reals into the extended reals goes through a finite sum. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of two 0/1 indicators is the number of indices where both hold. -/
theorem sum_ind_mul {N : ℕ} (p q : Fin N → Prop) [DecidablePred p] [DecidablePred q] :
    (∑ n : Fin N, (if p n then (1 : EReal) else 0) * (if q n then 1 else 0))
      = (((∑ n : Fin N, if p n ∧ q n then 1 else 0 : ℕ) : ℝ) : EReal) := by
  -- a product of two indicators is the indicator of the conjunction
  have h1 : ∀ n : Fin N, (if p n then (1 : EReal) else 0) * (if q n then 1 else 0)
      = (((if p n ∧ q n then 1 else 0 : ℕ) : ℝ) : EReal) := by
    intro n
    by_cases hp : p n <;> by_cases hq : q n <;> simp [hp, hq]
  rw [Nat.cast_sum, coe_sum_real]
  exact Finset.sum_congr rfl fun n _ => h1 n

/-- Truncating a natural number below 2³¹ to a signed word gives that number. -/
theorem fptosi_natCast (c : ℕ) (hc : c < 2 ^ 31) : Ideal.fptosi 32 (((c : ℝ)) : EReal) = BitVec.ofNat 32 c := by
  -- c ≥ 0, so the truncation is the floor, which is c; c lies inside the clamp's bounds
  rw [Ideal.fptosi, Ideal.toIntClamped_coe, if_pos (Nat.cast_nonneg c), Int.floor_natCast]
  have hz : max (-((2 ^ (32 - 1) : ℕ) : ℤ)) (min (((2 ^ (32 - 1) : ℕ) : ℤ) - 1) (c : ℤ)) = (c : ℤ) := by
    norm_num
    omega
  rw [hz, BitVec.ofInt_natCast]

/-- A sum over Fin N is the sum over range N. -/
theorem sum_fin_eq_range {N : ℕ} (f : ℕ → ℕ) : (∑ n : Fin N, f n.val) = ∑ n ∈ Finset.range N, f n :=
  Fin.sum_univ_eq_sum_range f N

end Hist

end
-- ==== Proof.KernelBlock.lean ====
/-
  The kernel's input blocks, read flat.

  Before the region the host reshapes x : [64, 112, 112, 64] to [802816, 64]; the region's input window stages, at grid
  point t, rows 2048 t … 2048 t + 2047 of that table.  Entry (n, ch) of the block at point t is therefore the input at
  row-major position (2048 t + n) · 64 + ch.
-/
import proofs.«154004_j25563645346324_1_alg».proof.Proof.Gen.KernelIdeal.Frame
import proofs.«154004_j25563645346324_1_alg».proof.Proof.BinCount
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The input array of core c, read flat in row-major order. -/
abbrev xflat (c : Dev nD) : ℕ → EReal :=
  Hist.flat (m ((c : Thread nD τ).loc main_arg0) : FVec Ideal S64x112x112x64 .f32)

/-- The input window's block index at grid point t is (t, 0). -/
theorem win0_index (t : Fin cfg0.N) : win0_0.index t 0 = t.val ∧ win0_0.index t 1 = 0 :=
  (by decide +kernel : ∀ t : Fin grid0.N, win0_0.index t 0 = t.val ∧ win0_0.index t 1 = 0) t

/-- The table the region finds is the host's reshape of the input. -/
theorem V_main_v0 (c : Dev nD) : (V m c main_v0 : S802816x64.Idx → EReal)
    = shapeCast S802816x64 (m ((c : Thread nD τ).loc main_arg0) : FVec Ideal S64x112x112x64 .f32)
        shapeCasts_S64x112x112x64_S802816x64 := by
  dsimp only [Gen.V, Gen.V0]
  simp only [Gen.hostOps0, List.flatten_cons, List.flatten_nil, List.append_nil]
  after_results
  rfl

/-- Entry (n, ch) of the input block at point t is the input at flat position (2048 t + n) · 64 + ch. -/
theorem iblk_apply (c : Dev nD) (t : Fin cfg0.N) (n : Fin 2048) (ch : Fin 64) :
    (iblk (F := Ideal) m c 0 t : Vec Ideal S2048x64 .f32) (ix2 n ch) = xflat m c ((t.val * 2048 + n.val) * 64 + ch.val) := by
  have hi := win0_index t
  have ht : t.val < 392 := lt_of_lt_of_eq t.isLt N_0
  have hr : t.val * 2048 + n.val < 802816 := by have := n.isLt; omega
  unfold iblk
  rw [View.read_apply]
  show V m c main_v0 _ = _
  have hemb : ((cfg0.win 0).blk t).view.emb (ix2 n ch) = ix2 ⟨t.val * 2048 + n.val, hr⟩ ch := by
    funext a
    apply Fin.ext
    match a with
    | ⟨0, _⟩ => show win0_0.index t 0 * 2048 + 1 * n.val = t.val * 2048 + n.val; rw [hi.1]; omega
    | ⟨1, _⟩ => show win0_0.index t 1 * 64 + 1 * ch.val = ch.val; rw [hi.2]; omega
  rw [hemb, V_main_v0, Hist.shapeCast_eq_flat, Shape.rowMajor_val_two]
  rfl

end Cert.KernelIdeal.Blocks

end
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.LibScatterAddi.lean ====
/-
  AN INTEGER SCATTER WHOSE BODY IS ADDITION, READ AT AN ELEMENT (no program is mentioned).

  `stablehlo.scatter` with an integer `add` body (jnp's `x.at[idx].add(v)` on integers, a histogram's counting step)
  is a left fold, over the update positions in row-major order, of steps that each add one update at one place.  Word
  addition is associative and commutative, so the fold read at a place is the operand's element plus the sum of the
  updates that land there, whatever the order.

  Contents.  `foldl_add_apply`: a left fold whose step adds a term at every place, read at a place, is the start value
  plus the sum of the terms.  `scatter_addi_apply`: for any dimension numbers, `Host.scatter d IntOp.addi x idx upd`
  at `i` is `x i` plus the sum of the updates `j` with `d.resultIdx? j idx = some i`.  `scatter_vec_apply`: for a vector
  operand `[N]`, an index column `[E, 1]` and updates `[E]` (update_window_dims none, inserted_window_dims `[0]`,
  scatter_dims_to_operand_dims `[0]`, index_vector_dim `1`): element `n` is the operand's plus the sum of the updates
  `e` whose SIGNED index is `n` (an index that is negative or at least `N` lands nowhere).  `sum_ite_one`: a sum of
  words that are 1 where `p` holds and 0 elsewhere is the number of places where `p` holds, as a word — so scattering
  ones into zeros counts.  Generic in the extents and the widths; holds for any witness of the dimension numbers'
  conditions.
-/
import proofs.«154004_j25563645346324_1_alg».proof.Proof.LibScatterRows
import Idealize.ShloMosaic.Lib.ValueIdx

noncomputable section

open scoped BigOperators
open Idealize.ShloMosaic Idealize.ShloMosaic.ValueIdx

namespace ScatterAddi

/-- A left fold whose step adds, at every place i, a term g n i to the accumulator: read at i it is the start value
    plus the sum of the terms of the list's members. -/
theorem foldl_add_apply {ι M N : Type*} [AddCommMonoid M] (step : (ι → M) → N → (ι → M))
    (g : N → ι → M) (hstep : ∀ r n i, step r n i = r i + g n i) (l : List N) (r : ι → M) (i : ι) :
    (l.foldl step r) i = r i + (l.map fun n => g n i).sum := by
  induction l generalizing r with
  | nil => simp
  | cons n l ih => rw [List.foldl_cons, ih, hstep, List.map_cons, List.sum_cons, add_assoc]

/-- The scatter whose body is word addition, read at an element: the operand's element plus the sum of the updates
    that land there. -/
theorem scatter_addi_apply {s si u : Shape} {w wi : Nat} (d : ScatterDims s si u) (x : s.Idx → BitVec w)
    (idx : IVec si wi) (upd : u.Idx → BitVec w) (i : s.Idx) :
    Host.scatter d IntOp.addi x idx upd i
      = x i + ∑ j : u.Idx, if d.resultIdx? j idx = some i then upd j else 0 := by
  unfold Host.scatter
  rw [foldl_add_apply _
    (fun n i => if d.resultIdx? (u.rowMajor.symm n) idx = some i then upd (u.rowMajor.symm n) else 0)]
  · rw [← Fin.sum_univ_def]
    congr 1
    exact Equiv.sum_comp u.rowMajor.symm (fun j => if d.resultIdx? j idx = some i then upd j else 0)
  · intro r n i'
    cases h : d.resultIdx? (u.rowMajor.symm n) idx with
    | none => simp
    | some i0 =>
      show (if i' = i0 then IntOp.addi (r i0) (upd (u.rowMajor.symm n)) else r i')
        = r i' + if some i0 = some i' then upd (u.rowMajor.symm n) else 0
      by_cases hi : i' = i0
      · subst hi
        simp [IntOp.addi]
      · have hne : ¬ (some i0 = some i') := fun h' => hi (Option.some.inj h').symm
        simp [hi, hne]

/-- The vector scatter with word addition, read at n: the operand's element plus the sum of the updates whose signed
    index is n. -/
theorem scatter_vec_apply {N E w wi : Nat}
    (wf : ScatterDims.WF (⟨1, ![N]⟩ : Shape) ⟨2, ![E, 1]⟩ ⟨1, ![E]⟩ [] [0] [0] 1)
    (x : (⟨1, ![N]⟩ : Shape).Idx → BitVec w) (idx : IVec ⟨2, ![E, 1]⟩ wi)
    (upd : (⟨1, ![E]⟩ : Shape).Idx → BitVec w) (n : Fin N) :
    Host.scatter (⟨[], [0], [0], 1, wf⟩ : ScatterDims ⟨1, ![N]⟩ ⟨2, ![E, 1]⟩ ⟨1, ![E]⟩) IntOp.addi x idx upd (ix1 n)
      = x (ix1 n) + ∑ e : Fin E, if (idx (ix2 e 0)).toInt = (n : ℤ) then upd (ix1 e) else 0 := by
  rw [scatter_addi_apply, ScatterRows.sum_idx1]
  congr 1
  exact Finset.sum_congr rfl fun e _ => if_congr (ScatterRows.resultIdx_vec_iff wf idx e n) rfl rfl

/-- A sum of words that are 1 where p holds and 0 elsewhere is the number of places where p holds, as a word. -/
theorem sum_ite_one {E : Nat} (p : Fin E → Prop) [DecidablePred p] :
    (∑ e : Fin E, if p e then (1#32) else 0) = BitVec.ofNat 32 (∑ e : Fin E, if p e then 1 else 0) := by
  have h : BitVec.ofNat 32 (∑ e : Fin E, if p e then 1 else 0)
      = ((∑ e : Fin E, if p e then 1 else 0 : ℕ) : BitVec 32) := rfl
  rw [h, Nat.cast_sum]
  refine Finset.sum_congr rfl fun e _ => ?_
  split
  · rfl
  · rfl

end ScatterAddi

end
-- ==== Proof.RefHist.lean ====
/-
  The reference's result table is the histogram table of the specification.

  The reference gives every flat position p of the input the id word  bin(x at p) + 256 · (p % 64)  — the bin of the
  activation plus 256 times its channel — and adds the word 1 into a zero vector of length 16384 at that id, for
  all 51380224 positions; the vector is then read as 64 rows of 256. Three steps.
  1. A scatter whose body is word addition is a left fold of steps that each add one update at one place; word
     addition being associative and commutative, the fold read at a place is the operand's element plus the sum of
     the updates that land there, whatever the order.
  2. The id word does not wrap: a bin is at most 255 and a channel at most 63, so the id is the natural number
     bin + 256 · channel < 16384 < 2³¹, it is not negative as a signed word, and the reference's correction of
     negative ids leaves it alone. Update p therefore lands at n exactly when bin + 256 · (p % 64) = n.
  3. Writing n = 256 · ch + k with k < 256 and p = 64 · r + c with c < 64: the equation forces c = ch and bin = k,
     so the positions that land at n are the rows r whose channel-ch activation falls in bin k.
-/
import proofs.«154004_j25563645346324_1_alg».proof.Proof.Gen.ReferenceIdeal.Read
import proofs.«154004_j25563645346324_1_alg».proof.Proof.BinCount
import proofs.«154004_j25563645346324_1_alg».proof.Proof.LibScatterRows
import proofs.«154004_j25563645346324_1_alg».proof.Proof.LibScatterAddi
import Idealize.ShloMosaic.Lib.ValueIdx

noncomputable section

open scoped BigOperators
open Idealize.ShloMosaic Idealize.ShloMosaic.ValueIdx

namespace Cert.RefHist

open ScatterAddi

/-- A bin word plus 256 times a channel number below 64 does not wrap. -/
theorem id_toNat (b : BitVec 32) (hb : b.toNat ≤ 255) (c : ℕ) (hc : c < 64) :
    (b + BitVec.ofNat 32 c * 256#32).toNat = b.toNat + 256 * c := by
  rw [BitVec.toNat_add, BitVec.toNat_mul, BitVec.toNat_ofNat, BitVec.toNat_ofNat]
  omega

/-- A word below 2³¹ is not negative: the signed comparison with 0 fails and the selection keeps the word. -/
theorem select_nonneg (v : BitVec 32) (hv : v.toNat < 2 ^ 31) :
    Scalar.select (IntOp.cmpi .slt v 0#32) (IntOp.addi v 16384#32) v = v := by
  have h : v.slt 0#32 = false := by
    rw [BitVec.slt_eq_decide, BitVec.toInt_eq_toNat_of_lt (by omega)]
    simp
  unfold Scalar.select IntOp.cmpi
  simp [h]

/-- Counting positions by rows: among the positions e < R · 64, those whose bin word plus 256 times the channel
    e % 64 is 256 ch + k are the rows r < R whose channel-ch bin word is k. -/
theorem count_rows (b : ℕ → BitVec 32) (hb : ∀ e, (b e).toNat ≤ 255) (ch k : ℕ) (hch : ch < 64) (hk : k < 256)
    (R : ℕ) :
    (∑ e ∈ Finset.range (R * 64), if (b e).toNat + 256 * (e % 64) = ch * 256 + k then 1 else 0)
      = ∑ r ∈ Finset.range R, if b (r * 64 + ch) = BitVec.ofNat 32 k then 1 else 0 := by
  induction R with
  | zero => simp
  | succ R ih =>
    have inner : (∑ c ∈ Finset.range 64,
          if (b (R * 64 + c)).toNat + 256 * ((R * 64 + c) % 64) = ch * 256 + k then 1 else 0)
        = if b (R * 64 + ch) = BitVec.ofNat 32 k then 1 else 0 := by
      rw [Finset.sum_eq_single ch]
      · have h1 : (R * 64 + ch) % 64 = ch := by omega
        rw [h1]
        have hbb := hb (R * 64 + ch)
        refine if_congr ⟨fun h => ?_, fun h => ?_⟩ rfl rfl
        · apply BitVec.eq_of_toNat_eq
          rw [BitVec.toNat_ofNat]
          omega
        · rw [h, BitVec.toNat_ofNat]
          omega
      · intro c hc hne
        have hc' := Finset.mem_range.mp hc
        have hbb := hb (R * 64 + c)
        rw [if_neg]
        omega
      · intro h
        exact absurd (Finset.mem_range.mpr hch) h
    rw [Nat.add_one_mul, Finset.sum_range_add, ih, inner, Finset.sum_range_succ]

open Cert.ReferenceIdeal Cert.ReferenceIdeal.Read

/-- The reference's bin word at an index is the bin of the activation there. -/
theorem bin_word (x : FVec Ideal S64x112x112x64 .f32) (j : S64x112x112x64.Idx) :
    val_main_v8 (F := Ideal) x j = Hist.bin (x j) := by
  rw [val_main_v8_apply, val_main_v7_apply, val_main_c_apply, val_main_v6_apply, val_main_v5_apply,
    val_main_call0_v1_apply, val_main_call0_v0_apply, val_main_cst_2_apply, val_main_v4_apply, val_main_v3_apply,
    val_main_cst_1_apply, val_main_v2_apply, val_main_v1_apply, val_main_v0_apply, val_main_cst_apply,
    val_main_cst_0_apply]
  simp only [Ideal.ofBits_def, Ideal.subf_def, Ideal.mulf_def, Ideal.maximumf_def]
  rw [Hist.neg3_mul_one]
  rfl

/-- The id word at a flat position p: the bin of the activation read flat at p, plus 256 times the channel p % 64. -/
theorem id_flat (x : FVec Ideal S64x112x112x64 .f32) (i : S51380224.Idx) :
    val_main_v16 (F := Ideal) x i
      = Hist.bin (Hist.flat x (i 0).val) + BitVec.ofNat 32 ((i 0).val % 64) * 256#32 := by
  have hj : (S64x112x112x64.rowMajor (idx_main_v16 i)).val = (i 0).val := by
    rw [Shape.rowMajor_val_four]
    have h0 : (i 0).val < 51380224 := (i 0).isLt
    show ((((i 0).val) / 802816 * 112 + ((i 0).val) / 7168 % 112) * 112 + ((i 0).val) / 64 % 112) * 64
      + ((i 0).val) % 64 = (i 0).val
    omega
  rw [val_main_v16_apply, val_main_v14_apply, bin_word, ← Hist.flat_rowMajor x (idx_main_v16 i), hj,
    val_main_v13_apply, val_main_v12_apply, val_main_v11_apply, val_main_v9_apply, val_main_v10_apply,
    val_main_c_3_apply]
  rfl

/-- The scatter index of update e, as a signed integer: the natural number bin + 256 · channel. -/
theorem id_toInt (x : FVec Ideal S64x112x112x64 .f32) (e : Fin 51380224) :
    (val_main_v22 (F := Ideal) x (ix2 e 0)).toInt
      = (((Hist.bin (Hist.flat x e.val)).toNat + 256 * (e.val % 64) : ℕ) : ℤ) := by
  have hb := Hist.bin_toNat_le (Hist.flat x e.val)
  have hc : e.val % 64 < 64 := Nat.mod_lt _ (by norm_num)
  have hv := id_toNat _ hb _ hc
  have hV : val_main_v16 (F := Ideal) x (idx_main_v22 (ix2 e 0))
      = Hist.bin (Hist.flat x e.val) + BitVec.ofNat 32 (e.val % 64) * 256#32 := id_flat x _
  rw [val_main_v22_apply, val_main_v21_apply, val_main_v18_apply, val_main_v20_apply, val_main_v17_apply,
    val_main_c_5_apply, val_main_v19_apply, val_main_c_6_apply, hV,
    select_nonneg _ (by rw [hv]; omega), BitVec.toInt_eq_toNat_of_lt (by rw [hv]; omega), hv]

/-- The scattered vector at n: the number of flat positions whose bin + 256 · channel is n, as a word. -/
theorem scatter_read (x : FVec Ideal S64x112x112x64 .f32) (n : Fin 16384) :
    val_main_v24 (F := Ideal) x (ix1 n)
      = BitVec.ofNat 32 (∑ e : Fin 51380224,
          if (Hist.bin (Hist.flat x e.val)).toNat + 256 * (e.val % 64) = n.val then 1 else 0) := by
  have h := scatter_vec_apply (N := 16384) (E := 51380224)
    Facts₀.scatter_S16384_S51380224x1_S51380224_n_0_0_1_wf
    (val_main_v15 (F := Ideal)) (val_main_v22 (F := Ideal) x) (val_main_v23 (F := Ideal)) n
  refine h.trans ?_
  rw [val_main_v15_apply, val_main_c_4_apply, BitVec.zero_add, ← sum_ite_one]
  refine Finset.sum_congr rfl fun e _ => ?_
  rw [val_main_v23_apply, val_main_c_7_apply, id_toInt]
  exact if_congr Nat.cast_inj rfl rfl

/-- The reference's result table is the histogram table of the input read flat. -/
theorem ref_table (x : FVec Ideal Cert.ReferenceIdeal.S64x112x112x64 .f32) :
    Cert.ReferenceIdeal.Read.val_main_v25 (F := Ideal) x = Hist.table (Hist.flat x) := by
  funext i
  have h0 : (i 0).val < 64 := (i 0).isLt
  have h1 : (i 1).val < 256 := (i 1).isLt
  have hi : idx_main_v25 i = ix1 ⟨(i 0).val * 256 + (i 1).val, by omega⟩ := by
    funext a
    match a with
    | ⟨0, _⟩ => rfl
  rw [val_main_v25_apply, hi, scatter_read]
  show _ = BitVec.ofNat 32 (Hist.cnt (Hist.flat x) (i 0).val (i 1).val 802816)
  refine congrArg (BitVec.ofNat 32) ?_
  have h := count_rows (fun e => Hist.bin (Hist.flat x e)) (fun e => Hist.bin_toNat_le _) (i 0).val (i 1).val h0 h1
    802816
  rw [show (802816 * 64 : ℕ) = 51380224 by norm_num] at h
  rw [Fin.sum_univ_eq_sum_range (fun e => if (Hist.bin (Hist.flat x e)).toNat + 256 * (e % 64)
    = (i 0).val * 256 + (i 1).val then 1 else 0) 51380224]
  exact h

end Cert.RefHist

end
-- ==== Proof.Claims.lean ====
/-
  The claims, assembled.

  The three frames are the generated runs: the kernel's and its idealization's frame runs, and the reference's run
  with its result dropped.  The ideal pass rewrote nothing, so what it preserves is trivial.  The algebraic claim
  pairs two runs from memories that agree on the input x: the kernel's idealization ends with x unchanged and its
  result table at the histogram table of x read flat (taken here as the hypothesis KernelRuns); the reference ends
  with x unchanged and its result table at its own composed term of x, which is the same histogram table of x read
  flat.  Both tables count, for each channel ch and bin k, the rows of x whose channel-ch activation falls in bin k.
-/
import proofs.«154004_j25563645346324_1_alg».proof.Defs
import proofs.«154004_j25563645346324_1_alg».proof.Proof.Gen.Kernel.Frame
import proofs.«154004_j25563645346324_1_alg».proof.Proof.Gen.KernelIdeal.Frame
import proofs.«154004_j25563645346324_1_alg».proof.Proof.Gen.ReferenceIdeal.Run
import proofs.«154004_j25563645346324_1_alg».proof.Proof.Gen.ReferenceIdeal.Read
import proofs.«154004_j25563645346324_1_alg».proof.Proof.Gen.Pre_finite_inputs
import proofs.«154004_j25563645346324_1_alg».proof.Proof.BinCount
import proofs.«154004_j25563645346324_1_alg».proof.Proof.KernelBlock
import proofs.«154004_j25563645346324_1_alg».proof.Proof.RefHist

noncomputable section

open Idealize.ShloMosaic Idealize.ShloMosaic.TcCoe Idealize.SL.Sem

namespace Cert.Proof.HistClaims

/-- The kernel's idealization runs: from any memory, on every core, the result table ends at the histogram table of
    the core's input read flat, and the input ends unchanged. -/
def KernelRuns : Prop := ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2) = Hist.table (Cert.KernelIdeal.Blocks.xflat m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the input x, both programs end with x unchanged and with the histogram table of x read
    flat: the kernel's idealization by its run, the reference because its composed term of x is that table. -/
theorem algebraic (hk : KernelRuns) : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Hist.table (Cert.KernelIdeal.Blocks.xflat m c), ?_, ?_⟩
  · exact (θ_run Cert.KernelIdeal.defs _ _).mono (fun _ h c => ⟨(h c).2, (h c).1, (h c).2⟩) (hk m ρ)
  · refine (θ_run Cert.ReferenceIdeal.defs _ _).mono
      (fun _ h c => ⟨(h c).1.trans (hagree c), (h c).2.1.trans ?_, (h c).2.2⟩)
      (Cert.ReferenceIdeal.Value.run (F := Ideal) m' ρ')
    -- the reference's term of its input is the histogram table of that input read flat; the inputs agree
    refine (Cert.ReferenceIdeal.Read.val_main_v25_eq _).trans ((Cert.RefHist.ref_table _).trans ?_)
    exact congrArg (fun x : FVec Ideal Cert.ReferenceIdeal.S64x112x112x64 .f32 => Hist.table (Hist.flat x)) (hagree c)

/-- Everything the certificate claims, given the kernel's run. -/
theorem claim_of (hk : KernelRuns) : Cert.Claim :=
  ⟨Cert.Kernel.Gen.facts, Cert.KernelIdeal.Gen.facts, Cert.ReferenceIdeal.Gen.facts, Cert.Pre_finite_inputs.Gen.facts,
    frame_k, frame_ki, frame_ri, preserves, algebraic hk⟩

end Cert.Proof.HistClaims

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.KernelChan.lean ====
/-
  One channel's store of the kernel body, read at an entry.

  For channel c the body compares the row of high nibbles of the block's bin words (a row of the transposed table)
  with the numbers 0..15 down a [16, 2048] array, the column of low nibbles with 0..15 along a [2048, 16] array,
  contracts the two 0/1 arrays over the 2048 rows of the block, truncates the [16, 16] result to words and adds it to
  the channel's slice of the output block.  Entry (h, l) of the contraction is the number of rows of the block whose
  bin word has high nibble h and low nibble l, that is, whose bin is 16 h + l; it is at most 2048, so the truncation
  returns it exactly.  Hence the new slice is the old slice plus, at (h, l), the number of rows of the block that fall
  in bin 16 h + l of channel c.
-/
import proofs.«154004_j25563645346324_1_alg».proof.Proof.Gen.KernelIdeal.Skeleton
import proofs.«154004_j25563645346324_1_alg».proof.Proof.BinCount
import proofs.«154004_j25563645346324_1_alg».proof.Proof.LibPlainMatmul
import Idealize.ShloMosaic.Lib.Pipeline.Value
import Idealize.ShloMosaic.Lib.ValueIdx
import Idealize.ShloMosaic.PureOps.Ideal.Laws

noncomputable section

namespace Cert.KernelIdeal.Chan

open Cert.KernelIdeal Cert.KernelIdeal.Gen
open Idealize.ShloMosaic Idealize.ShloMosaic.ValueIdx

variable {F : FTy → Type} [FloatOps F]

/-- The numbers 0..15 down the rows of a [16, 2048] array, and along the columns of a [2048, 16] array. -/
abbrev rowNumbers : IVec S16x2048 32 := iota .tc S16x2048 32 [0] iota_S16x2048_d0_w32
abbrev colNumbers : IVec S2048x16 32 := iota .tc S2048x16 32 [1] iota_S2048x16_d1_w32

/-- Channel c's new slice, from the low nibbles lo, the transposed high nibbles hiT and the old slice. -/
def chanPay (c : ℕ) (hs1 : S64x2048.Slices ![c, 0] S1x2048) (hs2 : S2048x64.Slices ![0, c] S2048x1)
    (lo : IVec S2048x64 32) (hiT : IVec S64x2048 32) (rows : IVec S16x2048 32) (cols : IVec S2048x16 32)
    (old : Vec F S1x16x16 .i32) : IVec S1x16x16 32 :=
  shapeCast S1x16x16
    (addi (shapeCast S16x16 old shapeCasts_S1x16x16_S16x16)
      (fptosi 32 (matmul (F := F) dot_S16x2048_S2048x16_S16x16_1_0_0_1_n_n none
        (truncf .bf16 (sitofp .f32 (extui 32 (cmpi .eq rows
          (broadcastTo S16x2048 (extractStridedSlice S1x2048 ![c, 0] hiT hs1) broadcasts_S1x2048_S16x2048)) natLt_1_32)) bitsLt_bf16_f32)
        (truncf .bf16 (sitofp .f32 (extui 32 (cmpi .eq cols
          (broadcastTo S2048x16 (extractStridedSlice S2048x1 ![0, c] lo hs2) broadcasts_S2048x1_S2048x16)) natLt_1_32)) bitsLt_bf16_f32)
        (constant S16x16 .f32 0x00000000#32))))
    shapeCasts_S16x16_S1x16x16

/-- The block's bin words: entry (n, c) is the bin word of the block's activation (n, c). -/
theorem binWords_apply (X : Vec Ideal S2048x64 .f32) (i : S2048x64.Idx) : k0_pay3 (F := Ideal) X i = Hist.bin (X i) := by
  unfold k0_pay3
  rw [shapeCast_self]
  rfl

/-- The low nibbles. -/
theorem lo_apply (X : Vec Ideal S2048x64 .f32) (i : S2048x64.Idx) :
    k0_pay4 (F := Ideal) X i = IntOp.andi (Hist.bin (X i)) 15#32 := by
  unfold k0_pay4
  show IntOp.andi (k0_pay3 X i) 15#32 = _
  rw [binWords_apply]

/-- The transposed high nibbles: entry (c, n) is the high nibble of the bin word (n, c). -/
theorem hiT_apply (X : Vec Ideal S2048x64 .f32) (c : Fin 64) (n : Fin 2048) :
    k0_pay5 (F := Ideal) X (ix2 c n) = IntOp.shrsi .vector (Hist.bin (X (ix2 n c))) 4#32 := by
  unfold k0_pay5
  refine (transpose_apply [1, 0] _ transposes_S2048x64_p1_0_S64x2048 (ix2 c n) (ix2 n c) (fun b => ?_)).trans ?_
  · match b with
    | ⟨0, _⟩ => rfl
    | ⟨1, _⟩ => rfl
  · show IntOp.shrsi .vector (k0_pay3 X (ix2 n c)) 4#32 = _
    rw [binWords_apply]

/-- A count of indices of Fin N is at most N. -/
theorem ind_sum_le {N : ℕ} (p : Fin N → Prop) [DecidablePred p] : (∑ n : Fin N, if p n then 1 else 0) ≤ N := by
  calc (∑ n : Fin N, if p n then 1 else 0) ≤ ∑ _n : Fin N, 1 :=
        Finset.sum_le_sum fun n _ => by split <;> omega
    _ = N := by simp

/-- A comparison of two word arrays, widened and converted to floats: 1 where the words are equal, else 0. -/
theorem onehot_vec {s : Shape} (A B : IVec s 32) (h1 : 1 < 32) (h2 : FTy.bits .bf16 < FTy.bits .f32) (j : s.Idx) :
    (truncf (F := Ideal) .bf16 (sitofp .f32 (extui 32 (cmpi .eq A B) h1)) h2) j = if A j = B j then 1 else 0 := by
  show FloatOps.truncf (F := Ideal) .bf16 h2 (FloatOps.sitofp .f32 ((IntOp.cmpi .eq (A j) (B j)).setWidth 32)) = _
  rw [Ideal.truncf_def]
  exact Hist.onehot_eq (A j) (B j)

/-- The contraction of two one-hot arrays over the 2048 rows, truncated to a word: entry (h, l) is the number of rows
    k at which both comparisons hold. -/
theorem contraction (A B : IVec S16x2048 32) (C D : IVec S2048x16 32) (h l : Fin 16)
    (P Q : Fin 2048 → Prop) [DecidablePred P] [DecidablePred Q]
    (hP : ∀ k, A (ix2 h k) = B (ix2 h k) ↔ P k) (hQ : ∀ k, C (ix2 k l) = D (ix2 k l) ↔ Q k) :
    fptosi 32 (matmul (F := Ideal) dot_S16x2048_S2048x16_S16x16_1_0_0_1_n_n none
        (truncf .bf16 (sitofp .f32 (extui 32 (cmpi .eq A B) natLt_1_32)) bitsLt_bf16_f32)
        (truncf .bf16 (sitofp .f32 (extui 32 (cmpi .eq C D) natLt_1_32)) bitsLt_bf16_f32)
        (constant S16x16 .f32 0x00000000#32)) (ix2 h l)
      = BitVec.ofNat 32 (∑ k : Fin 2048, if P k ∧ Q k then 1 else 0) := by
  refine (congrArg (Ideal.fptosi 32) (Cert.PlainMatmul.matmul_zero_apply
    Gen.dot_S16x2048_S2048x16_S16x16_1_0_0_1_n_n_wf none _ _ h l)).trans ?_
  have hs : (∑ k : Fin 2048,
        (truncf (F := Ideal) .bf16 (sitofp .f32 (extui 32 (cmpi .eq A B) natLt_1_32)) bitsLt_bf16_f32) (ix2 h k)
          * (truncf (F := Ideal) .bf16 (sitofp .f32 (extui 32 (cmpi .eq C D) natLt_1_32)) bitsLt_bf16_f32) (ix2 k l))
      = ∑ k : Fin 2048, (if P k then (1 : EReal) else 0) * (if Q k then 1 else 0) :=
    Finset.sum_congr rfl fun k _ => by
      rw [onehot_vec, onehot_vec, if_congr (hP k) rfl rfl, if_congr (hQ k) rfl rfl]
  rw [hs, Hist.sum_ind_mul, Hist.fptosi_natCast _ (lt_of_le_of_lt (ind_sum_le _) (by norm_num))]

/-- Entry (h, l) of channel c's new slice: the old entry plus the number of rows of the block X that fall in bin
    16 h + l of channel c. -/
theorem chan_apply (c : Fin 64) (hs1 : S64x2048.Slices ![c.val, 0] S1x2048) (hs2 : S2048x64.Slices ![0, c.val] S2048x1)
    (X : Vec Ideal S2048x64 .f32) (old : Vec Ideal S1x16x16 .i32) (h l : Fin 16) :
    chanPay (F := Ideal) c.val hs1 hs2 (k0_pay4 X) (k0_pay5 X) rowNumbers colNumbers old (ix3 0 h l)
      = old (ix3 0 h l) + BitVec.ofNat 32
          (∑ n : Fin 2048, if Hist.bin (X (ix2 n c)) = BitVec.ofNat 32 (16 * h.val + l.val) then 1 else 0) := by
  unfold chanPay
  -- the cast [16,16] → [1,16,16] read at (0, h, l) is the matrix at (h, l)
  refine (shapeCast_apply _ shapeCasts_S16x16_S1x16x16 (ix3 0 h l) (ix2 h l) (by
    rw [Shape.rowMajor_val_two, Shape.rowMajor_val_three]
    show h.val * 16 + l.val = (0 * 16 + h.val) * 16 + l.val
    omega)).trans ?_
  show (_ : BitVec 32) + _ = _
  refine congrArg₂ (· + ·) ?_ ?_
  · -- the old slice cast [1,16,16] → [16,16]
    exact shapeCast_apply old shapeCasts_S1x16x16_S16x16 (ix2 h l) (ix3 0 h l) (by
      rw [Shape.rowMajor_val_two, Shape.rowMajor_val_three]
      show (0 * 16 + h.val) * 16 + l.val = h.val * 16 + l.val
      omega)
  · -- row h of the first array compares h with the high nibbles of channel c, column l of the second l with the low ones
    refine (contraction _ _ _ _ h l
      (fun k => BitVec.ofNat 32 h.val = IntOp.shrsi .vector (Hist.bin (X (ix2 k c))) 4#32)
      (fun k => BitVec.ofNat 32 l.val = IntOp.andi (Hist.bin (X (ix2 k c))) 15#32) (fun k => ?_) (fun k => ?_)).trans ?_
    · rw [show rowNumbers (ix2 h k) = BitVec.ofNat 32 h.val from iota_single_apply _ _ _ _ _ _,
        broadcastTo_apply _ broadcasts_S1x2048_S16x2048 (ix2 h k) (ix2 0 k) (fun a => match a with
          | ⟨0, _⟩ => rfl
          | ⟨1, _⟩ => rfl),
        extractStridedSlice_apply ![c.val, 0] _ hs1 (ix2 0 k) (ix2 c k) (fun a => match a with
          | ⟨0, _⟩ => rfl
          | ⟨1, _⟩ => by show k.val = 0 + k.val; omega),
        hiT_apply]
    · rw [show colNumbers (ix2 k l) = BitVec.ofNat 32 l.val from iota_single_apply _ _ _ _ _ _,
        broadcastTo_apply _ broadcasts_S2048x1_S2048x16 (ix2 k l) (ix2 k 0) (fun a => match a with
          | ⟨0, _⟩ => rfl
          | ⟨1, _⟩ => rfl),
        extractStridedSlice_apply ![0, c.val] _ hs2 (ix2 k 0) (ix2 k c) (fun a => match a with
          | ⟨0, _⟩ => by show k.val = 0 + k.val; omega
          | ⟨1, _⟩ => rfl),
        lo_apply]
    · exact congrArg (BitVec.ofNat 32) (Finset.sum_congr rfl fun k _ =>
        if_congr (Hist.nibbles_iff _ (Hist.bin_toNat_le _) h.val l.val h.isLt l.isLt) rfl rfl)

end Cert.KernelIdeal.Chan

end
-- ==== Proof.LibCanonStep.lean ====
/-
  A list of stores read back ONE STORE AT A TIME against one target function.

  The contents a list of stores leaves (the newest store first in the list) are, at each index, the payload of the first
  store of the list whose rectangle holds the index. To show that these contents are a given function `G` at an index
  `y` it is therefore enough to go down the list once: the newest store's payload must be `G` on that store's own
  rectangle, and, in case `y` lies OUTSIDE that rectangle, the remaining (earlier) stores must leave `G` at `y`. Nothing is
  asked of the earlier stores at indices the newest one covers, so the stores may overlap, and a later store may overwrite
  an earlier one with different values (a buffer first filled with a constant and then overwritten piece by piece).
  The second form states the miss on the coordinates, for a store through a unit-stride rectangle.
-/
import Idealize.ShloMosaic.Lib.Pipeline.Value

noncomputable section

namespace Cert.CanonStep

open Idealize.ShloMosaic Idealize.ShloMosaic.View

variable {Val : EltTy → Type} {S : Shape} {e : EltTy}

/-- The contents left by `p :: L` are `G` at `y` when `p`'s payload is `G` on `p`'s rectangle and, if `y` is outside that
    rectangle, the contents left by `L` are `G` at `y`. -/
theorem canon_cons_eq_of [∀ e, Nonempty (Val e)] (G : S.Idx → Val e) (p : Piece Val S e) (L : List (Piece Val S e))
    (y : S.Idx) (hp : ∀ x : p.1.shape.Idx, p.2 x = G (p.1.emb x)) (hL : y ∉ p.1.set → canon L y = G y) :
    canon (p :: L) y = G y := by
  by_cases hm : y ∈ p.1.set
  · obtain ⟨x, rfl⟩ := p.1.exists_idx_of_mem hm
    rw [show p.1.idx x = p.1.emb x from rfl, canon_cons_emb]
    exact hp x
  · rw [canon_cons_of_not_mem _ _ hm]
    exact hL hm

/-- The same for a newest store through the unit-stride rectangle of sizes `size` at offsets `off`: `y` is outside it
    exactly when some coordinate of `y` is not in `[off a, off a + size a)`. -/
theorem canon_cons_unit_eq_of [∀ e, Nonempty (Val e)] (G : S.Idx → Val e) {off size : Fin S.rank → ℕ}
    (inb : ∀ a, off a + size a ≤ S.size a) (w : (Rect.unit off size inb).shape.Idx → Val e)
    (L : List (Piece Val S e)) (y : S.Idx)
    (hp : ∀ x : (Rect.unit off size inb).shape.Idx, w x = G ((Rect.unit off size inb).emb x))
    (hL : ¬ (∀ a, off a ≤ (y a).val ∧ (y a).val < off a + size a) → canon L y = G y) :
    canon ((⟨Rect.unit off size inb, w⟩ : Piece Val S e) :: L) y = G y :=
  canon_cons_eq_of G ⟨Rect.unit off size inb, w⟩ L y hp fun hm => hL fun h => hm ((Rect.mem_set_unit (inb := inb)).mpr h)

end Cert.CanonStep

end
-- ==== Proof.KernelStep.lean ====
/-
  What one grid point leaves in the output block.

  The body stores 64 slices [1, 16, 16] of the output block, one per channel; channel k's store is the slice it loaded
  just before plus the block's counts for channel k.  At a later grid point the loads read what the point before left,
  and no store touches another channel's slice, so the point leaves  old + counts  everywhere.  At the first grid point
  the body first fills the block with zeros; after the first k channel stores the block holds the counts on channels
  below k and zero elsewhere, so channel k's load reads zeros and the point leaves  0 + counts.
-/
import proofs.«154004_j25563645346324_1_alg».proof.Proof.Gen.KernelIdeal.Frame
import proofs.«154004_j25563645346324_1_alg».proof.Proof.BinCount
import proofs.«154004_j25563645346324_1_alg».proof.Proof.KernelChan
import proofs.«154004_j25563645346324_1_alg».proof.Proof.LibCanonStep
import Idealize.ShloMosaic.Lib.Pipeline.Value
import Idealize.ShloMosaic.Lib.ValueIdx

set_option maxRecDepth 16384

noncomputable section

namespace Cert.KernelIdeal.Step

open Cert.KernelIdeal Cert.KernelIdeal.Gen
open Idealize.ShloMosaic Idealize.ShloMosaic.TcCoe Idealize.ShloMosaic.ValueIdx Idealize.SL.Sem

/-- The block's counts: entry (ch, h, l) is the number of rows of the block X whose channel-ch activation falls in bin
    16 h + l, as a word. -/
def blockCount (X : Vec Ideal S2048x64 .f32) : Vec Ideal S64x16x16 .i32 :=
  fun y => BitVec.ofNat 32
    (∑ n : Fin 2048, if Hist.bin (X (ix2 n (y 0))) = BitVec.ofNat 32 (16 * (y 1).val + (y 2).val) then 1 else 0)

/-- The body's load of the whole input block. -/
abbrev readX (arg1 : Memref sig .tc .vmem S2048x64 .f32) (harg1 : arg1.IsWhole) (X : Vec Ideal S2048x64 .f32) :
    Vec Ideal S2048x64 .f32 :=
  View.readAt (Elt Ideal) arg1.view (Rect.unit ![0, 0] S2048x64.size inb_S2048x64_S2048x64_0_0).toLoadRect (harg1.unread X)

theorem readX_eq (arg1 : Memref sig .tc .vmem S2048x64 .f32) (harg1 : arg1.IsWhole) (X : Vec Ideal S2048x64 .f32) :
    readX arg1 harg1 X = X := by
  unfold readX
  rw [View.readAt_eq_ld, harg1.read_unread]
  exact View.ld_unit_zero (funext fun a => by fin_cases a <;> rfl) _ X

/-- Slice k of the output block, at its local index (0, h, l), is the block's index (k, h, l). -/
theorem emb_slice (k : Fin 64) (inb : ∀ a, (![k.val, 0, 0] : Fin 3 → ℕ) a + S1x16x16.size a ≤ S64x16x16.size a)
    (h l : Fin 16) :
    (Rect.unit (s := S64x16x16) ![k.val, 0, 0] S1x16x16.size inb).emb (ix3 0 h l) = ix3 k h l := by
  funext a
  refine Fin.ext ?_
  match a with
  | ⟨0, _⟩ => show k.val + 1 * 0 = k.val; omega
  | ⟨1, _⟩ => show 0 + 1 * h.val = h.val; omega
  | ⟨2, _⟩ => show 0 + 1 * l.val = l.val; omega

/-- Channel k's store, whatever slice it loaded: the loaded slice plus the block's counts, at the block's index. -/
theorem piece_apply (k : Fin 64) (inb : ∀ a, (![k.val, 0, 0] : Fin 3 → ℕ) a + S1x16x16.size a ≤ S64x16x16.size a)
    (hs1 : S64x2048.Slices ![k.val, 0] S1x2048) (hs2 : S2048x64.Slices ![0, k.val] S2048x1)
    (arg1 : Memref sig .tc .vmem S2048x64 .f32) (harg1 : arg1.IsWhole) (X : Vec Ideal S2048x64 .f32)
    (loaded : Vec Ideal S1x16x16 .i32) (h l : Fin 16) :
    Chan.chanPay (F := Ideal) k.val hs1 hs2 (k0_pay4 (readX arg1 harg1 X)) (k0_pay5 (readX arg1 harg1 X))
        Chan.rowNumbers Chan.colNumbers loaded (ix3 0 h l)
      = loaded (ix3 0 h l) + blockCount X (ix3 k h l) := by
  rw [readX_eq, Chan.chan_apply k hs1 hs2 X loaded h l]
  rfl

/-! ## A later grid point -/

/-- Channel k's store at a later point agrees with  old + counts  on its slice. -/
theorem pieceB (k : Fin 64) (inb : ∀ a, (![k.val, 0, 0] : Fin 3 → ℕ) a + S1x16x16.size a ≤ S64x16x16.size a)
    (hs1 : S64x2048.Slices ![k.val, 0] S1x2048) (hs2 : S2048x64.Slices ![0, k.val] S2048x1)
    (arg1 : Memref sig .tc .vmem S2048x64 .f32) (harg1 : arg1.IsWhole)
    (arg2 : Memref sig .tc .vmem S64x16x16 .i32) (harg2 : arg2.IsWhole)
    (X : Vec Ideal S2048x64 .f32) (old : Vec Ideal S64x16x16 .i32)
    (x : (Rect.unit (s := S64x16x16) ![k.val, 0, 0] S1x16x16.size inb).shape.Idx) :
    Chan.chanPay (F := Ideal) k.val hs1 hs2 (k0_pay4 (readX arg1 harg1 X)) (k0_pay5 (readX arg1 harg1 X))
        Chan.rowNumbers Chan.colNumbers
        (View.readAt (Elt Ideal) arg2.view (Rect.unit (s := S64x16x16) ![k.val, 0, 0] S1x16x16.size inb).toLoadRect
          (harg2.unread old)) x
      = (fun y => old y + blockCount X y) ((Rect.unit (s := S64x16x16) ![k.val, 0, 0] S1x16x16.size inb).emb x) := by
  obtain ⟨p, h, l, rfl⟩ : ∃ (p : Fin 1) (h l : Fin 16), x = ix3 p h l := ⟨x 0, x 1, x 2, eq_ix3 x⟩
  obtain rfl : p = 0 := Subsingleton.elim _ _
  refine (piece_apply k inb hs1 hs2 arg1 harg1 X _ h l).trans ?_
  have e1 : View.readAt (Elt Ideal) arg2.view (Rect.unit (s := S64x16x16) ![k.val, 0, 0] S1x16x16.size inb).toLoadRect
      (harg2.unread old) (ix3 0 h l) = old (ix3 k h l) := by
    rw [View.readAt_eq_ld, harg2.read_unread]
    exact congrArg old (emb_slice k inb h l)
  rw [e1, emb_slice k inb h l]

/-- A later grid point leaves  old + counts. -/
theorem outB (c : Dev nD) (i : grid0.Coords) (arg1 : Memref sig .tc .vmem S2048x64 .f32) (harg1 : arg1.IsWhole)
    (arg2 : Memref sig .tc .vmem S64x16x16 .i32) (harg2 : arg2.IsWhole) (hc0 : ¬cond0_0 i)
    (X : Vec Ideal S2048x64 .f32) (old : Vec Ideal S64x16x16 .i32) :
    out0_B_1 (F := Ideal) c i arg1 harg1 arg2 harg2 hc0 X old = fun y => old y + blockCount X y := by
  funext y
  unfold out0_B_1
  rw [View.read_writes_eq_canon _ _ _ (cover0_B_1 c i arg1 harg1 arg2 harg2 hc0 X old)]
  refine View.canon_apply_of_pieces (fun y => old y + blockCount X y) _ ?_ y
    (cover0_B_1 c i arg1 harg1 arg2 harg2 hc0 X old y)
  unfold kernelRun0_B
  dsimp only
  refine List.forall_mem_cons.2 ⟨fun x => pieceB ⟨63, by decide⟩ inb_S64x16x16_S1x16x16_63_0_0 slices_S64x2048_o63_0_S1x2048 slices_S2048x64_o0_63_S2048x1 arg1 harg1 arg2 harg2 X old x, ?_⟩
  refine List.forall_mem_cons.2 ⟨fun x => pieceB ⟨62, by decide⟩ inb_S64x16x16_S1x16x16_62_0_0 slices_S64x2048_o62_0_S1x2048 slices_S2048x64_o0_62_S2048x1 arg1 harg1 arg2 harg2 X old x, ?_⟩
  refine List.forall_mem_cons.2 ⟨fun x => pieceB ⟨61, by decide⟩ inb_S64x16x16_S1x16x16_61_0_0 slices_S64x2048_o61_0_S1x2048 slices_S2048x64_o0_61_S2048x1 arg1 harg1 arg2 harg2 X old x, ?_⟩
  refine List.forall_mem_cons.2 ⟨fun x => pieceB ⟨60, by decide⟩ inb_S64x16x16_S1x16x16_60_0_0 slices_S64x2048_o60_0_S1x2048 slices_S2048x64_o0_60_S2048x1 arg1 harg1 arg2 harg2 X old x, ?_⟩
  refine List.forall_mem_cons.2 ⟨fun x => pieceB ⟨59, by decide⟩ inb_S64x16x16_S1x16x16_59_0_0 slices_S64x2048_o59_0_S1x2048 slices_S2048x64_o0_59_S2048x1 arg1 harg1 arg2 harg2 X old x, ?_⟩
  refine List.forall_mem_cons.2 ⟨fun x => pieceB ⟨58, by decide⟩ inb_S64x16x16_S1x16x16_58_0_0 slices_S64x2048_o58_0_S1x2048 slices_S2048x64_o0_58_S2048x1 arg1 harg1 arg2 harg2 X old x, ?_⟩
  refine List.forall_mem_cons.2 ⟨fun x => pieceB ⟨57, by decide⟩ inb_S64x16x16_S1x16x16_57_0_0 slices_S64x2048_o57_0_S1x2048 slices_S2048x64_o0_57_S2048x1 arg1 harg1 arg2 harg2 X old x, ?_⟩
  refine List.forall_mem_cons.2 ⟨fun x => pieceB ⟨56, by decide⟩ inb_S64x16x16_S1x16x16_56_0_0 slices_S64x2048_o56_0_S1x2048 slices_S2048x64_o0_56_S2048x1 arg1 harg1 arg2 harg2 X old x, ?_⟩
  refine List.forall_mem_cons.2 ⟨fun x => pieceB ⟨55, by decide⟩ inb_S64x16x16_S1x16x16_55_0_0 slices_S64x2048_o55_0_S1x2048 slices_S2048x64_o0_55_S2048x1 arg1 harg1 arg2 harg2 X old x, ?_⟩
  refine List.forall_mem_cons.2 ⟨fun x => pieceB ⟨54, by decide⟩ inb_S64x16x16_S1x16x16_54_0_0 slices_S64x2048_o54_0_S1x2048 slices_S2048x64_o0_54_S2048x1 arg1 harg1 arg2 harg2 X old x, ?_⟩
  refine List.forall_mem_cons.2 ⟨fun x => pieceB ⟨53, by decide⟩ inb_S64x16x16_S1x16x16_53_0_0 slices_S64x2048_o53_0_S1x2048 slices_S2048x64_o0_53_S2048x1 arg1 harg1 arg2 harg2 X old x, ?_⟩
  refine List.forall_mem_cons.2 ⟨fun x => pieceB ⟨52, by decide⟩ inb_S64x16x16_S1x16x16_52_0_0 slices_S64x2048_o52_0_S1x2048 slices_S2048x64_o0_52_S2048x1 arg1 harg1 arg2 harg2 X old x, ?_⟩
  refine List.forall_mem_cons.2 ⟨fun x => pieceB ⟨51, by decide⟩ inb_S64x16x16_S1x16x16_51_0_0 slices_S64x2048_o51_0_S1x2048 slices_S2048x64_o0_51_S2048x1 arg1 harg1 arg2 harg2 X old x, ?_⟩
  refine List.forall_mem_cons.2 ⟨fun x => pieceB ⟨50, by decide⟩ inb_S64x16x16_S1x16x16_50_0_0 slices_S64x2048_o50_0_S1x2048 slices_S2048x64_o0_50_S2048x1 arg1 harg1 arg2 harg2 X old x, ?_⟩
  refine List.forall_mem_cons.2 ⟨fun x => pieceB ⟨49, by decide⟩ inb_S64x16x16_S1x16x16_49_0_0 slices_S64x2048_o49_0_S1x2048 slices_S2048x64_o0_49_S2048x1 arg1 harg1 arg2 harg2 X old x, ?_⟩
  refine List.forall_mem_cons.2 ⟨fun x => pieceB ⟨48, by decide⟩ inb_S64x16x16_S1x16x16_48_0_0 slices_S64x2048_o48_0_S1x2048 slices_S2048x64_o0_48_S2048x1 arg1 harg1 arg2 harg2 X old x, ?_⟩
  refine List.forall_mem_cons.2 ⟨fun x => pieceB ⟨47, by decide⟩ inb_S64x16x16_S1x16x16_47_0_0 slices_S64x2048_o47_0_S1x2048 slices_S2048x64_o0_47_S2048x1 arg1 harg1 arg2 harg2 X old x, ?_⟩
  refine List.forall_mem_cons.2 ⟨fun x => pieceB ⟨46, by decide⟩ inb_S64x16x16_S1x16x16_46_0_0 slices_S64x2048_o46_0_S1x2048 slices_S2048x64_o0_46_S2048x1 arg1 harg1 arg2 harg2 X old x, ?_⟩
  refine List.forall_mem_cons.2 ⟨fun x => pieceB ⟨45, by decide⟩ inb_S64x16x16_S1x16x16_45_0_0 slices_S64x2048_o45_0_S1x2048 slices_S2048x64_o0_45_S2048x1 arg1 harg1 arg2 harg2 X old x, ?_⟩
  refine List.forall_mem_cons.2 ⟨fun x => pieceB ⟨44, by decide⟩ inb_S64x16x16_S1x16x16_44_0_0 slices_S64x2048_o44_0_S1x2048 slices_S2048x64_o0_44_S2048x1 arg1 harg1 arg2 harg2 X old x, ?_⟩
  refine List.forall_mem_cons.2 ⟨fun x => pieceB ⟨43, by decide⟩ inb_S64x16x16_S1x16x16_43_0_0 slices_S64x2048_o43_0_S1x2048 slices_S2048x64_o0_43_S2048x1 arg1 harg1 arg2 harg2 X old x, ?_⟩
  refine List.forall_mem_cons.2 ⟨fun x => pieceB ⟨42, by decide⟩ inb_S64x16x16_S1x16x16_42_0_0 slices_S64x2048_o42_0_S1x2048 slices_S2048x64_o0_42_S2048x1 arg1 harg1 arg2 harg2 X old x, ?_⟩
  refine List.forall_mem_cons.2 ⟨fun x => pieceB ⟨41, by decide⟩ inb_S64x16x16_S1x16x16_41_0_0 slices_S64x2048_o41_0_S1x2048 slices_S2048x64_o0_41_S2048x1 arg1 harg1 arg2 harg2 X old x, ?_⟩
  refine List.forall_mem_cons.2 ⟨fun x => pieceB ⟨40, by decide⟩ inb_S64x16x16_S1x16x16_40_0_0 slices_S64x2048_o40_0_S1x2048 slices_S2048x64_o0_40_S2048x1 arg1 harg1 arg2 harg2 X old x, ?_⟩
  refine List.forall_mem_cons.2 ⟨fun x => pieceB ⟨39, by decide⟩ inb_S64x16x16_S1x16x16_39_0_0 slices_S64x2048_o39_0_S1x2048 slices_S2048x64_o0_39_S2048x1 arg1 harg1 arg2 harg2 X old x, ?_⟩
  refine List.forall_mem_cons.2 ⟨fun x => pieceB ⟨38, by decide⟩ inb_S64x16x16_S1x16x16_38_0_0 slices_S64x2048_o38_0_S1x2048 slices_S2048x64_o0_38_S2048x1 arg1 harg1 arg2 harg2 X old x, ?_⟩
  refine List.forall_mem_cons.2 ⟨fun x => pieceB ⟨37, by decide⟩ inb_S64x16x16_S1x16x16_37_0_0 slices_S64x2048_o37_0_S1x2048 slices_S2048x64_o0_37_S2048x1 arg1 harg1 arg2 harg2 X old x, ?_⟩
  refine List.forall_mem_cons.2 ⟨fun x => pieceB ⟨36, by decide⟩ inb_S64x16x16_S1x16x16_36_0_0 slices_S64x2048_o36_0_S1x2048 slices_S2048x64_o0_36_S2048x1 arg1 harg1 arg2 harg2 X old x, ?_⟩
  refine List.forall_mem_cons.2 ⟨fun x => pieceB ⟨35, by decide⟩ inb_S64x16x16_S1x16x16_35_0_0 slices_S64x2048_o35_0_S1x2048 slices_S2048x64_o0_35_S2048x1 arg1 harg1 arg2 harg2 X old x, ?_⟩
  refine List.forall_mem_cons.2 ⟨fun x => pieceB ⟨34, by decide⟩ inb_S64x16x16_S1x16x16_34_0_0 slices_S64x2048_o34_0_S1x2048 slices_S2048x64_o0_34_S2048x1 arg1 harg1 arg2 harg2 X old x, ?_⟩
  refine List.forall_mem_cons.2 ⟨fun x => pieceB ⟨33, by decide⟩ inb_S64x16x16_S1x16x16_33_0_0 slices_S64x2048_o33_0_S1x2048 slices_S2048x64_o0_33_S2048x1 arg1 harg1 arg2 harg2 X old x, ?_⟩
  refine List.forall_mem_cons.2 ⟨fun x => pieceB ⟨32, by decide⟩ inb_S64x16x16_S1x16x16_32_0_0 slices_S64x2048_o32_0_S1x2048 slices_S2048x64_o0_32_S2048x1 arg1 harg1 arg2 harg2 X old x, ?_⟩
  refine List.forall_mem_cons.2 ⟨fun x => pieceB ⟨31, by decide⟩ inb_S64x16x16_S1x16x16_31_0_0 slices_S64x2048_o31_0_S1x2048 slices_S2048x64_o0_31_S2048x1 arg1 harg1 arg2 harg2 X old x, ?_⟩
  refine List.forall_mem_cons.2 ⟨fun x => pieceB ⟨30, by decide⟩ inb_S64x16x16_S1x16x16_30_0_0 slices_S64x2048_o30_0_S1x2048 slices_S2048x64_o0_30_S2048x1 arg1 harg1 arg2 harg2 X old x, ?_⟩
  refine List.forall_mem_cons.2 ⟨fun x => pieceB ⟨29, by decide⟩ inb_S64x16x16_S1x16x16_29_0_0 slices_S64x2048_o29_0_S1x2048 slices_S2048x64_o0_29_S2048x1 arg1 harg1 arg2 harg2 X old x, ?_⟩
  refine List.forall_mem_cons.2 ⟨fun x => pieceB ⟨28, by decide⟩ inb_S64x16x16_S1x16x16_28_0_0 slices_S64x2048_o28_0_S1x2048 slices_S2048x64_o0_28_S2048x1 arg1 harg1 arg2 harg2 X old x, ?_⟩
  refine List.forall_mem_cons.2 ⟨fun x => pieceB ⟨27, by decide⟩ inb_S64x16x16_S1x16x16_27_0_0 slices_S64x2048_o27_0_S1x2048 slices_S2048x64_o0_27_S2048x1 arg1 harg1 arg2 harg2 X old x, ?_⟩
  refine List.forall_mem_cons.2 ⟨fun x => pieceB ⟨26, by decide⟩ inb_S64x16x16_S1x16x16_26_0_0 slices_S64x2048_o26_0_S1x2048 slices_S2048x64_o0_26_S2048x1 arg1 harg1 arg2 harg2 X old x, ?_⟩
  refine List.forall_mem_cons.2 ⟨fun x => pieceB ⟨25, by decide⟩ inb_S64x16x16_S1x16x16_25_0_0 slices_S64x2048_o25_0_S1x2048 slices_S2048x64_o0_25_S2048x1 arg1 harg1 arg2 harg2 X old x, ?_⟩
  refine List.forall_mem_cons.2 ⟨fun x => pieceB ⟨24, by decide⟩ inb_S64x16x16_S1x16x16_24_0_0 slices_S64x2048_o24_0_S1x2048 slices_S2048x64_o0_24_S2048x1 arg1 harg1 arg2 harg2 X old x, ?_⟩
  refine List.forall_mem_cons.2 ⟨fun x => pieceB ⟨23, by decide⟩ inb_S64x16x16_S1x16x16_23_0_0 slices_S64x2048_o23_0_S1x2048 slices_S2048x64_o0_23_S2048x1 arg1 harg1 arg2 harg2 X old x, ?_⟩
  refine List.forall_mem_cons.2 ⟨fun x => pieceB ⟨22, by decide⟩ inb_S64x16x16_S1x16x16_22_0_0 slices_S64x2048_o22_0_S1x2048 slices_S2048x64_o0_22_S2048x1 arg1 harg1 arg2 harg2 X old x, ?_⟩
  refine List.forall_mem_cons.2 ⟨fun x => pieceB ⟨21, by decide⟩ inb_S64x16x16_S1x16x16_21_0_0 slices_S64x2048_o21_0_S1x2048 slices_S2048x64_o0_21_S2048x1 arg1 harg1 arg2 harg2 X old x, ?_⟩
  refine List.forall_mem_cons.2 ⟨fun x => pieceB ⟨20, by decide⟩ inb_S64x16x16_S1x16x16_20_0_0 slices_S64x2048_o20_0_S1x2048 slices_S2048x64_o0_20_S2048x1 arg1 harg1 arg2 harg2 X old x, ?_⟩
  refine List.forall_mem_cons.2 ⟨fun x => pieceB ⟨19, by decide⟩ inb_S64x16x16_S1x16x16_19_0_0 slices_S64x2048_o19_0_S1x2048 slices_S2048x64_o0_19_S2048x1 arg1 harg1 arg2 harg2 X old x, ?_⟩
  refine List.forall_mem_cons.2 ⟨fun x => pieceB ⟨18, by decide⟩ inb_S64x16x16_S1x16x16_18_0_0 slices_S64x2048_o18_0_S1x2048 slices_S2048x64_o0_18_S2048x1 arg1 harg1 arg2 harg2 X old x, ?_⟩
  refine List.forall_mem_cons.2 ⟨fun x => pieceB ⟨17, by decide⟩ inb_S64x16x16_S1x16x16_17_0_0 slices_S64x2048_o17_0_S1x2048 slices_S2048x64_o0_17_S2048x1 arg1 harg1 arg2 harg2 X old x, ?_⟩
  refine List.forall_mem_cons.2 ⟨fun x => pieceB ⟨16, by decide⟩ inb_S64x16x16_S1x16x16_16_0_0 slices_S64x2048_o16_0_S1x2048 slices_S2048x64_o0_16_S2048x1 arg1 harg1 arg2 harg2 X old x, ?_⟩
  refine List.forall_mem_cons.2 ⟨fun x => pieceB ⟨15, by decide⟩ inb_S64x16x16_S1x16x16_15_0_0 slices_S64x2048_o15_0_S1x2048 slices_S2048x64_o0_15_S2048x1 arg1 harg1 arg2 harg2 X old x, ?_⟩
  refine List.forall_mem_cons.2 ⟨fun x => pieceB ⟨14, by decide⟩ inb_S64x16x16_S1x16x16_14_0_0 slices_S64x2048_o14_0_S1x2048 slices_S2048x64_o0_14_S2048x1 arg1 harg1 arg2 harg2 X old x, ?_⟩
  refine List.forall_mem_cons.2 ⟨fun x => pieceB ⟨13, by decide⟩ inb_S64x16x16_S1x16x16_13_0_0 slices_S64x2048_o13_0_S1x2048 slices_S2048x64_o0_13_S2048x1 arg1 harg1 arg2 harg2 X old x, ?_⟩
  refine List.forall_mem_cons.2 ⟨fun x => pieceB ⟨12, by decide⟩ inb_S64x16x16_S1x16x16_12_0_0 slices_S64x2048_o12_0_S1x2048 slices_S2048x64_o0_12_S2048x1 arg1 harg1 arg2 harg2 X old x, ?_⟩
  refine List.forall_mem_cons.2 ⟨fun x => pieceB ⟨11, by decide⟩ inb_S64x16x16_S1x16x16_11_0_0 slices_S64x2048_o11_0_S1x2048 slices_S2048x64_o0_11_S2048x1 arg1 harg1 arg2 harg2 X old x, ?_⟩
  refine List.forall_mem_cons.2 ⟨fun x => pieceB ⟨10, by decide⟩ inb_S64x16x16_S1x16x16_10_0_0 slices_S64x2048_o10_0_S1x2048 slices_S2048x64_o0_10_S2048x1 arg1 harg1 arg2 harg2 X old x, ?_⟩
  refine List.forall_mem_cons.2 ⟨fun x => pieceB ⟨9, by decide⟩ inb_S64x16x16_S1x16x16_9_0_0 slices_S64x2048_o9_0_S1x2048 slices_S2048x64_o0_9_S2048x1 arg1 harg1 arg2 harg2 X old x, ?_⟩
  refine List.forall_mem_cons.2 ⟨fun x => pieceB ⟨8, by decide⟩ inb_S64x16x16_S1x16x16_8_0_0 slices_S64x2048_o8_0_S1x2048 slices_S2048x64_o0_8_S2048x1 arg1 harg1 arg2 harg2 X old x, ?_⟩
  refine List.forall_mem_cons.2 ⟨fun x => pieceB ⟨7, by decide⟩ inb_S64x16x16_S1x16x16_7_0_0 slices_S64x2048_o7_0_S1x2048 slices_S2048x64_o0_7_S2048x1 arg1 harg1 arg2 harg2 X old x, ?_⟩
  refine List.forall_mem_cons.2 ⟨fun x => pieceB ⟨6, by decide⟩ inb_S64x16x16_S1x16x16_6_0_0 slices_S64x2048_o6_0_S1x2048 slices_S2048x64_o0_6_S2048x1 arg1 harg1 arg2 harg2 X old x, ?_⟩
  refine List.forall_mem_cons.2 ⟨fun x => pieceB ⟨5, by decide⟩ inb_S64x16x16_S1x16x16_5_0_0 slices_S64x2048_o5_0_S1x2048 slices_S2048x64_o0_5_S2048x1 arg1 harg1 arg2 harg2 X old x, ?_⟩
  refine List.forall_mem_cons.2 ⟨fun x => pieceB ⟨4, by decide⟩ inb_S64x16x16_S1x16x16_4_0_0 slices_S64x2048_o4_0_S1x2048 slices_S2048x64_o0_4_S2048x1 arg1 harg1 arg2 harg2 X old x, ?_⟩
  refine List.forall_mem_cons.2 ⟨fun x => pieceB ⟨3, by decide⟩ inb_S64x16x16_S1x16x16_3_0_0 slices_S64x2048_o3_0_S1x2048 slices_S2048x64_o0_3_S2048x1 arg1 harg1 arg2 harg2 X old x, ?_⟩
  refine List.forall_mem_cons.2 ⟨fun x => pieceB ⟨2, by decide⟩ inb_S64x16x16_S1x16x16_2_0_0 slices_S64x2048_o2_0_S1x2048 slices_S2048x64_o0_2_S2048x1 arg1 harg1 arg2 harg2 X old x, ?_⟩
  refine List.forall_mem_cons.2 ⟨fun x => pieceB ⟨1, by decide⟩ inb_S64x16x16_S1x16x16_1_0_0 slices_S64x2048_o1_0_S1x2048 slices_S2048x64_o0_1_S2048x1 arg1 harg1 arg2 harg2 X old x, ?_⟩
  refine List.forall_mem_cons.2 ⟨fun x => pieceB ⟨0, by decide⟩ inb_S64x16x16_S1x16x16_0_0_0 slices_S64x2048_o0_0_S1x2048 slices_S2048x64_o0_0_S2048x1 arg1 harg1 arg2 harg2 X old x, ?_⟩
  exact fun _ h => absurd h List.not_mem_nil

/-! ## The first grid point -/

/-- After the zero fill and the first k channel stores: the counts (added to zero) on channels below k, zero elsewhere. -/
def partA (X : Vec Ideal S2048x64 .f32) (k : ℕ) : Vec Ideal S64x16x16 .i32 :=
  fun y => if (y 0).val < k then 0#32 + blockCount X y else 0#32

/-- A list of stores leaves  partA X k  and covers the block. -/
def Leaves (L : List (View.Piece (Elt Ideal) S64x16x16 .i32)) (X : Vec Ideal S2048x64 .f32) (k : ℕ) : Prop :=
  View.canon L = partA X k ∧ ∀ y : S64x16x16.Idx, ∃ p ∈ L, y ∈ p.1.set

/-- The zero fill alone leaves zeros. -/
theorem leaves_zero (X : Vec Ideal S2048x64 .f32) : Leaves (kernelRun0_A.sl.H1_1 (F := Ideal)) X 0 := by
  have hz : (![0, 0, 0] : Fin 3 → ℕ) = fun _ => 0 := funext fun a => by fin_cases a <;> rfl
  unfold kernelRun0_A.sl.H1_1
  refine ⟨?_, fun y => ⟨_, List.mem_singleton_self _,
    View.mem_set_unit_zero hz inb_S64x16x16_S64x16x16_0_0_0 y⟩⟩
  rw [View.canon_unit_zero hz]
  funext y
  unfold partA
  rw [if_neg (Nat.not_lt_zero _)]
  rfl

/-- One more channel store: channel k's load reads the zeros still there, and its store puts  0 + counts  on slice k. -/
theorem leaves_step (k : Fin 64) (inb : ∀ a, (![k.val, 0, 0] : Fin 3 → ℕ) a + S1x16x16.size a ≤ S64x16x16.size a)
    (hs1 : S64x2048.Slices ![k.val, 0] S1x2048) (hs2 : S2048x64.Slices ![0, k.val] S2048x1)
    (arg1 : Memref sig .tc .vmem S2048x64 .f32) (harg1 : arg1.IsWhole)
    (arg2 : Memref sig .tc .vmem S64x16x16 .i32)
    (X : Vec Ideal S2048x64 .f32) (L : List (View.Piece (Elt Ideal) S64x16x16 .i32)) (hL : Leaves L X k.val) :
    Leaves ((⟨Rect.unit (s := S64x16x16) ![k.val, 0, 0] S1x16x16.size inb,
        Chan.chanPay (F := Ideal) k.val hs1 hs2 (k0_pay4 (readX arg1 harg1 X)) (k0_pay5 (readX arg1 harg1 X))
          Chan.rowNumbers Chan.colNumbers
          (arg2.view.readCov L (Rect.unit (s := S64x16x16) ![k.val, 0, 0] S1x16x16.size inb).toLoadRect)⟩
        : View.Piece (Elt Ideal) S64x16x16 .i32) :: L) X (k.val + 1) := by
  obtain ⟨hcan, hcov⟩ := hL
  refine ⟨?_, fun y => ?_⟩
  · funext y
    refine Cert.CanonStep.canon_cons_unit_eq_of (partA X (k.val + 1)) inb _ L y (fun x => ?_) (fun hm => ?_)
    · -- on slice k: the loaded slice is zero, the store is 0 + counts
      obtain ⟨p, h, l, rfl⟩ : ∃ (p : Fin 1) (h l : Fin 16), x = ix3 p h l := ⟨x 0, x 1, x 2, eq_ix3 x⟩
      obtain rfl : p = 0 := Subsingleton.elim _ _
      refine (piece_apply k inb hs1 hs2 arg1 harg1 X _ h l).trans ?_
      have e1 : arg2.view.readCov L (Rect.unit (s := S64x16x16) ![k.val, 0, 0] S1x16x16.size inb).toLoadRect (ix3 0 h l)
          = 0#32 := by
        rw [View.readCov_eq_canon _ L _ (fun j => hcov _), hcan]
        show partA X k.val ((Rect.unit (s := S64x16x16) ![k.val, 0, 0] S1x16x16.size inb).emb (ix3 0 h l)) = 0#32
        rw [emb_slice k inb h l]
        unfold partA
        exact if_neg (Nat.lt_irrefl _)
      rw [e1, emb_slice k inb h l]
      unfold partA
      exact (if_pos (Nat.lt_succ_self _)).symm
    · -- off slice k: unchanged, and not channel k
      have hne : (y 0).val ≠ k.val := fun e => hm fun a => by
        have h1 : (y 1).val < 16 := (y 1).isLt
        have h2 : (y 2).val < 16 := (y 2).isLt
        match a with
        | ⟨0, _⟩ => show k.val ≤ (y 0).val ∧ (y 0).val < k.val + 1; omega
        | ⟨1, _⟩ => show 0 ≤ (y 1).val ∧ (y 1).val < 0 + 16; omega
        | ⟨2, _⟩ => show 0 ≤ (y 2).val ∧ (y 2).val < 0 + 16; omega
      rw [hcan]
      unfold partA
      by_cases hlt : (y 0).val < k.val
      · rw [if_pos hlt, if_pos (by omega)]
      · rw [if_neg hlt, if_neg (by omega)]
  · obtain ⟨p, hp, hy⟩ := hcov y
    exact ⟨p, List.mem_cons_of_mem _ hp, hy⟩

/-- The run's own store lists, one link per channel. -/
theorem chainA_0 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_2 (F := Ideal) c arg1 harg1 arg2 X) X 1 :=
  leaves_step ⟨0, by decide⟩ inb_S64x16x16_S1x16x16_0_0_0 slices_S64x2048_o0_0_S1x2048 slices_S2048x64_o0_0_S2048x1 arg1 harg1 arg2 X _ (leaves_zero X)
theorem chainA_1 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_3 (F := Ideal) c arg1 harg1 arg2 X) X 2 :=
  leaves_step ⟨1, by decide⟩ inb_S64x16x16_S1x16x16_1_0_0 slices_S64x2048_o1_0_S1x2048 slices_S2048x64_o0_1_S2048x1 arg1 harg1 arg2 X _ (chainA_0 c arg1 harg1 arg2 X)
theorem chainA_2 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_4 (F := Ideal) c arg1 harg1 arg2 X) X 3 :=
  leaves_step ⟨2, by decide⟩ inb_S64x16x16_S1x16x16_2_0_0 slices_S64x2048_o2_0_S1x2048 slices_S2048x64_o0_2_S2048x1 arg1 harg1 arg2 X _ (chainA_1 c arg1 harg1 arg2 X)
theorem chainA_3 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_5 (F := Ideal) c arg1 harg1 arg2 X) X 4 :=
  leaves_step ⟨3, by decide⟩ inb_S64x16x16_S1x16x16_3_0_0 slices_S64x2048_o3_0_S1x2048 slices_S2048x64_o0_3_S2048x1 arg1 harg1 arg2 X _ (chainA_2 c arg1 harg1 arg2 X)
theorem chainA_4 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_6 (F := Ideal) c arg1 harg1 arg2 X) X 5 :=
  leaves_step ⟨4, by decide⟩ inb_S64x16x16_S1x16x16_4_0_0 slices_S64x2048_o4_0_S1x2048 slices_S2048x64_o0_4_S2048x1 arg1 harg1 arg2 X _ (chainA_3 c arg1 harg1 arg2 X)
theorem chainA_5 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_7 (F := Ideal) c arg1 harg1 arg2 X) X 6 :=
  leaves_step ⟨5, by decide⟩ inb_S64x16x16_S1x16x16_5_0_0 slices_S64x2048_o5_0_S1x2048 slices_S2048x64_o0_5_S2048x1 arg1 harg1 arg2 X _ (chainA_4 c arg1 harg1 arg2 X)
theorem chainA_6 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_8 (F := Ideal) c arg1 harg1 arg2 X) X 7 :=
  leaves_step ⟨6, by decide⟩ inb_S64x16x16_S1x16x16_6_0_0 slices_S64x2048_o6_0_S1x2048 slices_S2048x64_o0_6_S2048x1 arg1 harg1 arg2 X _ (chainA_5 c arg1 harg1 arg2 X)
theorem chainA_7 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_9 (F := Ideal) c arg1 harg1 arg2 X) X 8 :=
  leaves_step ⟨7, by decide⟩ inb_S64x16x16_S1x16x16_7_0_0 slices_S64x2048_o7_0_S1x2048 slices_S2048x64_o0_7_S2048x1 arg1 harg1 arg2 X _ (chainA_6 c arg1 harg1 arg2 X)
theorem chainA_8 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_10 (F := Ideal) c arg1 harg1 arg2 X) X 9 :=
  leaves_step ⟨8, by decide⟩ inb_S64x16x16_S1x16x16_8_0_0 slices_S64x2048_o8_0_S1x2048 slices_S2048x64_o0_8_S2048x1 arg1 harg1 arg2 X _ (chainA_7 c arg1 harg1 arg2 X)
theorem chainA_9 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_11 (F := Ideal) c arg1 harg1 arg2 X) X 10 :=
  leaves_step ⟨9, by decide⟩ inb_S64x16x16_S1x16x16_9_0_0 slices_S64x2048_o9_0_S1x2048 slices_S2048x64_o0_9_S2048x1 arg1 harg1 arg2 X _ (chainA_8 c arg1 harg1 arg2 X)
theorem chainA_10 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_12 (F := Ideal) c arg1 harg1 arg2 X) X 11 :=
  leaves_step ⟨10, by decide⟩ inb_S64x16x16_S1x16x16_10_0_0 slices_S64x2048_o10_0_S1x2048 slices_S2048x64_o0_10_S2048x1 arg1 harg1 arg2 X _ (chainA_9 c arg1 harg1 arg2 X)
theorem chainA_11 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_13 (F := Ideal) c arg1 harg1 arg2 X) X 12 :=
  leaves_step ⟨11, by decide⟩ inb_S64x16x16_S1x16x16_11_0_0 slices_S64x2048_o11_0_S1x2048 slices_S2048x64_o0_11_S2048x1 arg1 harg1 arg2 X _ (chainA_10 c arg1 harg1 arg2 X)
theorem chainA_12 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_14 (F := Ideal) c arg1 harg1 arg2 X) X 13 :=
  leaves_step ⟨12, by decide⟩ inb_S64x16x16_S1x16x16_12_0_0 slices_S64x2048_o12_0_S1x2048 slices_S2048x64_o0_12_S2048x1 arg1 harg1 arg2 X _ (chainA_11 c arg1 harg1 arg2 X)
theorem chainA_13 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_15 (F := Ideal) c arg1 harg1 arg2 X) X 14 :=
  leaves_step ⟨13, by decide⟩ inb_S64x16x16_S1x16x16_13_0_0 slices_S64x2048_o13_0_S1x2048 slices_S2048x64_o0_13_S2048x1 arg1 harg1 arg2 X _ (chainA_12 c arg1 harg1 arg2 X)
theorem chainA_14 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_16 (F := Ideal) c arg1 harg1 arg2 X) X 15 :=
  leaves_step ⟨14, by decide⟩ inb_S64x16x16_S1x16x16_14_0_0 slices_S64x2048_o14_0_S1x2048 slices_S2048x64_o0_14_S2048x1 arg1 harg1 arg2 X _ (chainA_13 c arg1 harg1 arg2 X)
theorem chainA_15 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_17 (F := Ideal) c arg1 harg1 arg2 X) X 16 :=
  leaves_step ⟨15, by decide⟩ inb_S64x16x16_S1x16x16_15_0_0 slices_S64x2048_o15_0_S1x2048 slices_S2048x64_o0_15_S2048x1 arg1 harg1 arg2 X _ (chainA_14 c arg1 harg1 arg2 X)
theorem chainA_16 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_18 (F := Ideal) c arg1 harg1 arg2 X) X 17 :=
  leaves_step ⟨16, by decide⟩ inb_S64x16x16_S1x16x16_16_0_0 slices_S64x2048_o16_0_S1x2048 slices_S2048x64_o0_16_S2048x1 arg1 harg1 arg2 X _ (chainA_15 c arg1 harg1 arg2 X)
theorem chainA_17 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_19 (F := Ideal) c arg1 harg1 arg2 X) X 18 :=
  leaves_step ⟨17, by decide⟩ inb_S64x16x16_S1x16x16_17_0_0 slices_S64x2048_o17_0_S1x2048 slices_S2048x64_o0_17_S2048x1 arg1 harg1 arg2 X _ (chainA_16 c arg1 harg1 arg2 X)
theorem chainA_18 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_20 (F := Ideal) c arg1 harg1 arg2 X) X 19 :=
  leaves_step ⟨18, by decide⟩ inb_S64x16x16_S1x16x16_18_0_0 slices_S64x2048_o18_0_S1x2048 slices_S2048x64_o0_18_S2048x1 arg1 harg1 arg2 X _ (chainA_17 c arg1 harg1 arg2 X)
theorem chainA_19 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_21 (F := Ideal) c arg1 harg1 arg2 X) X 20 :=
  leaves_step ⟨19, by decide⟩ inb_S64x16x16_S1x16x16_19_0_0 slices_S64x2048_o19_0_S1x2048 slices_S2048x64_o0_19_S2048x1 arg1 harg1 arg2 X _ (chainA_18 c arg1 harg1 arg2 X)
theorem chainA_20 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_22 (F := Ideal) c arg1 harg1 arg2 X) X 21 :=
  leaves_step ⟨20, by decide⟩ inb_S64x16x16_S1x16x16_20_0_0 slices_S64x2048_o20_0_S1x2048 slices_S2048x64_o0_20_S2048x1 arg1 harg1 arg2 X _ (chainA_19 c arg1 harg1 arg2 X)
theorem chainA_21 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_23 (F := Ideal) c arg1 harg1 arg2 X) X 22 :=
  leaves_step ⟨21, by decide⟩ inb_S64x16x16_S1x16x16_21_0_0 slices_S64x2048_o21_0_S1x2048 slices_S2048x64_o0_21_S2048x1 arg1 harg1 arg2 X _ (chainA_20 c arg1 harg1 arg2 X)
theorem chainA_22 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_24 (F := Ideal) c arg1 harg1 arg2 X) X 23 :=
  leaves_step ⟨22, by decide⟩ inb_S64x16x16_S1x16x16_22_0_0 slices_S64x2048_o22_0_S1x2048 slices_S2048x64_o0_22_S2048x1 arg1 harg1 arg2 X _ (chainA_21 c arg1 harg1 arg2 X)
theorem chainA_23 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_25 (F := Ideal) c arg1 harg1 arg2 X) X 24 :=
  leaves_step ⟨23, by decide⟩ inb_S64x16x16_S1x16x16_23_0_0 slices_S64x2048_o23_0_S1x2048 slices_S2048x64_o0_23_S2048x1 arg1 harg1 arg2 X _ (chainA_22 c arg1 harg1 arg2 X)
theorem chainA_24 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_26 (F := Ideal) c arg1 harg1 arg2 X) X 25 :=
  leaves_step ⟨24, by decide⟩ inb_S64x16x16_S1x16x16_24_0_0 slices_S64x2048_o24_0_S1x2048 slices_S2048x64_o0_24_S2048x1 arg1 harg1 arg2 X _ (chainA_23 c arg1 harg1 arg2 X)
theorem chainA_25 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_27 (F := Ideal) c arg1 harg1 arg2 X) X 26 :=
  leaves_step ⟨25, by decide⟩ inb_S64x16x16_S1x16x16_25_0_0 slices_S64x2048_o25_0_S1x2048 slices_S2048x64_o0_25_S2048x1 arg1 harg1 arg2 X _ (chainA_24 c arg1 harg1 arg2 X)
theorem chainA_26 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_28 (F := Ideal) c arg1 harg1 arg2 X) X 27 :=
  leaves_step ⟨26, by decide⟩ inb_S64x16x16_S1x16x16_26_0_0 slices_S64x2048_o26_0_S1x2048 slices_S2048x64_o0_26_S2048x1 arg1 harg1 arg2 X _ (chainA_25 c arg1 harg1 arg2 X)
theorem chainA_27 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_29 (F := Ideal) c arg1 harg1 arg2 X) X 28 :=
  leaves_step ⟨27, by decide⟩ inb_S64x16x16_S1x16x16_27_0_0 slices_S64x2048_o27_0_S1x2048 slices_S2048x64_o0_27_S2048x1 arg1 harg1 arg2 X _ (chainA_26 c arg1 harg1 arg2 X)
theorem chainA_28 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_30 (F := Ideal) c arg1 harg1 arg2 X) X 29 :=
  leaves_step ⟨28, by decide⟩ inb_S64x16x16_S1x16x16_28_0_0 slices_S64x2048_o28_0_S1x2048 slices_S2048x64_o0_28_S2048x1 arg1 harg1 arg2 X _ (chainA_27 c arg1 harg1 arg2 X)
theorem chainA_29 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_31 (F := Ideal) c arg1 harg1 arg2 X) X 30 :=
  leaves_step ⟨29, by decide⟩ inb_S64x16x16_S1x16x16_29_0_0 slices_S64x2048_o29_0_S1x2048 slices_S2048x64_o0_29_S2048x1 arg1 harg1 arg2 X _ (chainA_28 c arg1 harg1 arg2 X)
theorem chainA_30 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_32 (F := Ideal) c arg1 harg1 arg2 X) X 31 :=
  leaves_step ⟨30, by decide⟩ inb_S64x16x16_S1x16x16_30_0_0 slices_S64x2048_o30_0_S1x2048 slices_S2048x64_o0_30_S2048x1 arg1 harg1 arg2 X _ (chainA_29 c arg1 harg1 arg2 X)
theorem chainA_31 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_33 (F := Ideal) c arg1 harg1 arg2 X) X 32 :=
  leaves_step ⟨31, by decide⟩ inb_S64x16x16_S1x16x16_31_0_0 slices_S64x2048_o31_0_S1x2048 slices_S2048x64_o0_31_S2048x1 arg1 harg1 arg2 X _ (chainA_30 c arg1 harg1 arg2 X)
theorem chainA_32 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_34 (F := Ideal) c arg1 harg1 arg2 X) X 33 :=
  leaves_step ⟨32, by decide⟩ inb_S64x16x16_S1x16x16_32_0_0 slices_S64x2048_o32_0_S1x2048 slices_S2048x64_o0_32_S2048x1 arg1 harg1 arg2 X _ (chainA_31 c arg1 harg1 arg2 X)
theorem chainA_33 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_35 (F := Ideal) c arg1 harg1 arg2 X) X 34 :=
  leaves_step ⟨33, by decide⟩ inb_S64x16x16_S1x16x16_33_0_0 slices_S64x2048_o33_0_S1x2048 slices_S2048x64_o0_33_S2048x1 arg1 harg1 arg2 X _ (chainA_32 c arg1 harg1 arg2 X)
theorem chainA_34 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_36 (F := Ideal) c arg1 harg1 arg2 X) X 35 :=
  leaves_step ⟨34, by decide⟩ inb_S64x16x16_S1x16x16_34_0_0 slices_S64x2048_o34_0_S1x2048 slices_S2048x64_o0_34_S2048x1 arg1 harg1 arg2 X _ (chainA_33 c arg1 harg1 arg2 X)
theorem chainA_35 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_37 (F := Ideal) c arg1 harg1 arg2 X) X 36 :=
  leaves_step ⟨35, by decide⟩ inb_S64x16x16_S1x16x16_35_0_0 slices_S64x2048_o35_0_S1x2048 slices_S2048x64_o0_35_S2048x1 arg1 harg1 arg2 X _ (chainA_34 c arg1 harg1 arg2 X)
theorem chainA_36 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_38 (F := Ideal) c arg1 harg1 arg2 X) X 37 :=
  leaves_step ⟨36, by decide⟩ inb_S64x16x16_S1x16x16_36_0_0 slices_S64x2048_o36_0_S1x2048 slices_S2048x64_o0_36_S2048x1 arg1 harg1 arg2 X _ (chainA_35 c arg1 harg1 arg2 X)
theorem chainA_37 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_39 (F := Ideal) c arg1 harg1 arg2 X) X 38 :=
  leaves_step ⟨37, by decide⟩ inb_S64x16x16_S1x16x16_37_0_0 slices_S64x2048_o37_0_S1x2048 slices_S2048x64_o0_37_S2048x1 arg1 harg1 arg2 X _ (chainA_36 c arg1 harg1 arg2 X)
theorem chainA_38 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_40 (F := Ideal) c arg1 harg1 arg2 X) X 39 :=
  leaves_step ⟨38, by decide⟩ inb_S64x16x16_S1x16x16_38_0_0 slices_S64x2048_o38_0_S1x2048 slices_S2048x64_o0_38_S2048x1 arg1 harg1 arg2 X _ (chainA_37 c arg1 harg1 arg2 X)
theorem chainA_39 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_41 (F := Ideal) c arg1 harg1 arg2 X) X 40 :=
  leaves_step ⟨39, by decide⟩ inb_S64x16x16_S1x16x16_39_0_0 slices_S64x2048_o39_0_S1x2048 slices_S2048x64_o0_39_S2048x1 arg1 harg1 arg2 X _ (chainA_38 c arg1 harg1 arg2 X)
theorem chainA_40 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_42 (F := Ideal) c arg1 harg1 arg2 X) X 41 :=
  leaves_step ⟨40, by decide⟩ inb_S64x16x16_S1x16x16_40_0_0 slices_S64x2048_o40_0_S1x2048 slices_S2048x64_o0_40_S2048x1 arg1 harg1 arg2 X _ (chainA_39 c arg1 harg1 arg2 X)
theorem chainA_41 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_43 (F := Ideal) c arg1 harg1 arg2 X) X 42 :=
  leaves_step ⟨41, by decide⟩ inb_S64x16x16_S1x16x16_41_0_0 slices_S64x2048_o41_0_S1x2048 slices_S2048x64_o0_41_S2048x1 arg1 harg1 arg2 X _ (chainA_40 c arg1 harg1 arg2 X)
theorem chainA_42 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_44 (F := Ideal) c arg1 harg1 arg2 X) X 43 :=
  leaves_step ⟨42, by decide⟩ inb_S64x16x16_S1x16x16_42_0_0 slices_S64x2048_o42_0_S1x2048 slices_S2048x64_o0_42_S2048x1 arg1 harg1 arg2 X _ (chainA_41 c arg1 harg1 arg2 X)
theorem chainA_43 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_45 (F := Ideal) c arg1 harg1 arg2 X) X 44 :=
  leaves_step ⟨43, by decide⟩ inb_S64x16x16_S1x16x16_43_0_0 slices_S64x2048_o43_0_S1x2048 slices_S2048x64_o0_43_S2048x1 arg1 harg1 arg2 X _ (chainA_42 c arg1 harg1 arg2 X)
theorem chainA_44 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_46 (F := Ideal) c arg1 harg1 arg2 X) X 45 :=
  leaves_step ⟨44, by decide⟩ inb_S64x16x16_S1x16x16_44_0_0 slices_S64x2048_o44_0_S1x2048 slices_S2048x64_o0_44_S2048x1 arg1 harg1 arg2 X _ (chainA_43 c arg1 harg1 arg2 X)
theorem chainA_45 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_47 (F := Ideal) c arg1 harg1 arg2 X) X 46 :=
  leaves_step ⟨45, by decide⟩ inb_S64x16x16_S1x16x16_45_0_0 slices_S64x2048_o45_0_S1x2048 slices_S2048x64_o0_45_S2048x1 arg1 harg1 arg2 X _ (chainA_44 c arg1 harg1 arg2 X)
theorem chainA_46 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_48 (F := Ideal) c arg1 harg1 arg2 X) X 47 :=
  leaves_step ⟨46, by decide⟩ inb_S64x16x16_S1x16x16_46_0_0 slices_S64x2048_o46_0_S1x2048 slices_S2048x64_o0_46_S2048x1 arg1 harg1 arg2 X _ (chainA_45 c arg1 harg1 arg2 X)
theorem chainA_47 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_49 (F := Ideal) c arg1 harg1 arg2 X) X 48 :=
  leaves_step ⟨47, by decide⟩ inb_S64x16x16_S1x16x16_47_0_0 slices_S64x2048_o47_0_S1x2048 slices_S2048x64_o0_47_S2048x1 arg1 harg1 arg2 X _ (chainA_46 c arg1 harg1 arg2 X)
theorem chainA_48 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_50 (F := Ideal) c arg1 harg1 arg2 X) X 49 :=
  leaves_step ⟨48, by decide⟩ inb_S64x16x16_S1x16x16_48_0_0 slices_S64x2048_o48_0_S1x2048 slices_S2048x64_o0_48_S2048x1 arg1 harg1 arg2 X _ (chainA_47 c arg1 harg1 arg2 X)
theorem chainA_49 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_51 (F := Ideal) c arg1 harg1 arg2 X) X 50 :=
  leaves_step ⟨49, by decide⟩ inb_S64x16x16_S1x16x16_49_0_0 slices_S64x2048_o49_0_S1x2048 slices_S2048x64_o0_49_S2048x1 arg1 harg1 arg2 X _ (chainA_48 c arg1 harg1 arg2 X)
theorem chainA_50 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_52 (F := Ideal) c arg1 harg1 arg2 X) X 51 :=
  leaves_step ⟨50, by decide⟩ inb_S64x16x16_S1x16x16_50_0_0 slices_S64x2048_o50_0_S1x2048 slices_S2048x64_o0_50_S2048x1 arg1 harg1 arg2 X _ (chainA_49 c arg1 harg1 arg2 X)
theorem chainA_51 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_53 (F := Ideal) c arg1 harg1 arg2 X) X 52 :=
  leaves_step ⟨51, by decide⟩ inb_S64x16x16_S1x16x16_51_0_0 slices_S64x2048_o51_0_S1x2048 slices_S2048x64_o0_51_S2048x1 arg1 harg1 arg2 X _ (chainA_50 c arg1 harg1 arg2 X)
theorem chainA_52 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_54 (F := Ideal) c arg1 harg1 arg2 X) X 53 :=
  leaves_step ⟨52, by decide⟩ inb_S64x16x16_S1x16x16_52_0_0 slices_S64x2048_o52_0_S1x2048 slices_S2048x64_o0_52_S2048x1 arg1 harg1 arg2 X _ (chainA_51 c arg1 harg1 arg2 X)
theorem chainA_53 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_55 (F := Ideal) c arg1 harg1 arg2 X) X 54 :=
  leaves_step ⟨53, by decide⟩ inb_S64x16x16_S1x16x16_53_0_0 slices_S64x2048_o53_0_S1x2048 slices_S2048x64_o0_53_S2048x1 arg1 harg1 arg2 X _ (chainA_52 c arg1 harg1 arg2 X)
theorem chainA_54 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_56 (F := Ideal) c arg1 harg1 arg2 X) X 55 :=
  leaves_step ⟨54, by decide⟩ inb_S64x16x16_S1x16x16_54_0_0 slices_S64x2048_o54_0_S1x2048 slices_S2048x64_o0_54_S2048x1 arg1 harg1 arg2 X _ (chainA_53 c arg1 harg1 arg2 X)
theorem chainA_55 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_57 (F := Ideal) c arg1 harg1 arg2 X) X 56 :=
  leaves_step ⟨55, by decide⟩ inb_S64x16x16_S1x16x16_55_0_0 slices_S64x2048_o55_0_S1x2048 slices_S2048x64_o0_55_S2048x1 arg1 harg1 arg2 X _ (chainA_54 c arg1 harg1 arg2 X)
theorem chainA_56 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_58 (F := Ideal) c arg1 harg1 arg2 X) X 57 :=
  leaves_step ⟨56, by decide⟩ inb_S64x16x16_S1x16x16_56_0_0 slices_S64x2048_o56_0_S1x2048 slices_S2048x64_o0_56_S2048x1 arg1 harg1 arg2 X _ (chainA_55 c arg1 harg1 arg2 X)
theorem chainA_57 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_59 (F := Ideal) c arg1 harg1 arg2 X) X 58 :=
  leaves_step ⟨57, by decide⟩ inb_S64x16x16_S1x16x16_57_0_0 slices_S64x2048_o57_0_S1x2048 slices_S2048x64_o0_57_S2048x1 arg1 harg1 arg2 X _ (chainA_56 c arg1 harg1 arg2 X)
theorem chainA_58 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_60 (F := Ideal) c arg1 harg1 arg2 X) X 59 :=
  leaves_step ⟨58, by decide⟩ inb_S64x16x16_S1x16x16_58_0_0 slices_S64x2048_o58_0_S1x2048 slices_S2048x64_o0_58_S2048x1 arg1 harg1 arg2 X _ (chainA_57 c arg1 harg1 arg2 X)
theorem chainA_59 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_61 (F := Ideal) c arg1 harg1 arg2 X) X 60 :=
  leaves_step ⟨59, by decide⟩ inb_S64x16x16_S1x16x16_59_0_0 slices_S64x2048_o59_0_S1x2048 slices_S2048x64_o0_59_S2048x1 arg1 harg1 arg2 X _ (chainA_58 c arg1 harg1 arg2 X)
theorem chainA_60 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_62 (F := Ideal) c arg1 harg1 arg2 X) X 61 :=
  leaves_step ⟨60, by decide⟩ inb_S64x16x16_S1x16x16_60_0_0 slices_S64x2048_o60_0_S1x2048 slices_S2048x64_o0_60_S2048x1 arg1 harg1 arg2 X _ (chainA_59 c arg1 harg1 arg2 X)
theorem chainA_61 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_63 (F := Ideal) c arg1 harg1 arg2 X) X 62 :=
  leaves_step ⟨61, by decide⟩ inb_S64x16x16_S1x16x16_61_0_0 slices_S64x2048_o61_0_S1x2048 slices_S2048x64_o0_61_S2048x1 arg1 harg1 arg2 X _ (chainA_60 c arg1 harg1 arg2 X)
theorem chainA_62 (c : Dev nD) (arg1 : Memref sig .tc .vmem S2048x64 .f32) (harg1 : arg1.IsWhole)
    (arg2 : Memref sig .tc .vmem S64x16x16 .i32) (X : Vec Ideal S2048x64 .f32) :
    Leaves (kernelRun0_A.sl.H1_64 (F := Ideal) c arg1 harg1 arg2 X) X 63 :=
  leaves_step ⟨62, by decide⟩ inb_S64x16x16_S1x16x16_62_0_0 slices_S64x2048_o62_0_S1x2048 slices_S2048x64_o0_62_S2048x1 arg1 harg1 arg2 X _ (chainA_61 c arg1 harg1 arg2 X)

/-- The first grid point leaves  0 + counts. -/
theorem outA (c : Dev nD) (i : grid0.Coords) (arg1 : Memref sig .tc .vmem S2048x64 .f32) (harg1 : arg1.IsWhole)
    (arg2 : Memref sig .tc .vmem S64x16x16 .i32) (harg2 : arg2.IsWhole) (hc0 : cond0_0 i)
    (X : Vec Ideal S2048x64 .f32) :
    out0_A_1 (F := Ideal) c i arg1 harg1 arg2 harg2 hc0 X = fun y => 0#32 + blockCount X y := by
  unfold out0_A_1
  rw [View.read_writes_eq_canon _ _ _ (cover0_A_1 c i arg1 harg1 arg2 harg2 hc0 X)]
  unfold kernelRun0_A
  dsimp only
  refine (leaves_step ⟨63, by decide⟩ inb_S64x16x16_S1x16x16_63_0_0 slices_S64x2048_o63_0_S1x2048 slices_S2048x64_o0_63_S2048x1 arg1 harg1 arg2 X _ (chainA_62 c arg1 harg1 arg2 X)).1.trans ?_
  funext y
  unfold partA
  exact if_pos (y 0).isLt

end Cert.KernelIdeal.Step

end
-- ==== Proof.KernelAcc.lean ====
/-
  What the output block holds after each grid point.

  The output block [64, 16, 16] stays staged over the whole grid.  At the first point the body zero-fills it and then
  adds, channel by channel, the block's counts; at every later point it adds the block's counts to what the point before
  left.  So after point n entry (ch, h, l) is the number of rows among the first (n + 1) · 2048 whose channel-ch
  activation falls in bin 16 h + l, as a 32-bit word.
-/
import proofs.«154004_j25563645346324_1_alg».proof.Proof.Gen.KernelIdeal.Frame
import proofs.«154004_j25563645346324_1_alg».proof.Proof.BinCount
import proofs.«154004_j25563645346324_1_alg».proof.Proof.KernelBlock
import proofs.«154004_j25563645346324_1_alg».proof.Proof.KernelStep

noncomputable section

namespace Cert.KernelIdeal.Acc

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The counts of the first R row blocks, as the contents of the output block. -/
def accum (c : Dev nD) (R : ℕ) : Vec Ideal S64x16x16 .i32 :=
  fun y => BitVec.ofNat 32 (Hist.cnt (Blocks.xflat m c) (y 0).val (16 * (y 1).val + (y 2).val) (R * 2048))

/-- One block's step, over variables: if the block X holds rows 2048 t … 2048 t + 2047 of the input read flat, the
    count of the first 2048 t rows of channel ch in bin k plus the block's own count is the count of the first
    2048 (t + 1) rows, as words. -/
theorem block_step (xf : ℕ → EReal) (X : Vec Ideal S2048x64 .f32) (t : ℕ) (ch : Fin 64) (k : ℕ)
    (hX : ∀ n : Fin 2048, X (ix2 n ch) = xf ((t * 2048 + n.val) * 64 + ch.val)) :
    BitVec.ofNat 32 (Hist.cnt xf ch.val k (t * 2048))
        + BitVec.ofNat 32 (∑ n : Fin 2048, if Hist.bin (X (ix2 n ch)) = BitVec.ofNat 32 k then 1 else 0)
      = BitVec.ofNat 32 (Hist.cnt xf ch.val k ((t + 1) * 2048)) := by
  have hs : (∑ n : Fin 2048, if Hist.bin (X (ix2 n ch)) = BitVec.ofNat 32 k then 1 else 0)
      = ∑ n ∈ Finset.range 2048, Hist.hit xf ch.val k (t * 2048 + n) := by
    rw [← Hist.sum_fin_eq_range (N := 2048) (fun n => Hist.hit xf ch.val k (t * 2048 + n))]
    exact Finset.sum_congr rfl fun n _ => by rw [hX]; rfl
  rw [hs, ← BitVec.ofNat_add, ← Hist.cnt_add, show (t + 1) * 2048 = t * 2048 + 2048 by ring]

/-- The step at grid point t: what the point before left, if it is the counts of the first 2048 t rows, plus the
    counts of the block at t, is the counts of the first 2048 (t + 1) rows. -/
theorem step_eq (c : Dev nD) (t : Fin cfg0.N) (y : S64x16x16.Idx) (prev : BitVec 32)
    (hprev : prev = BitVec.ofNat 32
      (Hist.cnt (Blocks.xflat m c) (y 0).val (16 * (y 1).val + (y 2).val) (t.val * 2048))) :
    prev + BitVec.ofNat 32 (∑ n : Fin 2048,
        if Hist.bin ((iblk (F := Ideal) m c 0 t : Vec Ideal S2048x64 .f32) (ix2 n (y 0)))
          = BitVec.ofNat 32 (16 * (y 1).val + (y 2).val) then 1 else 0)
      = accum m c (t.val + 1) y := by
  subst hprev
  exact block_step (Blocks.xflat m c) (iblk (F := Ideal) m c 0 t) t.val (y 0) (16 * (y 1).val + (y 2).val)
    (fun n => Blocks.iblk_apply m c t n (y 0))

/-- THE INDUCTION over the grid points, from the two case values: the first point leaves 0 plus its block's counts,
    every later point what the point before left plus its block's counts, where a block's counts at (ch, h, l) are the
    number of its 2048 rows whose channel-ch activation falls in bin 16 h + l. -/
theorem outsAt_eq_of (bc : Vec Ideal S2048x64 .f32 → Vec Ideal S64x16x16 .i32)
    (hbc : ∀ (X : Vec Ideal S2048x64 .f32) (y : S64x16x16.Idx), bc X y = BitVec.ofNat 32
      (∑ n : Fin 2048, if Hist.bin (X (ix2 n (y 0))) = BitVec.ofNat 32 (16 * (y 1).val + (y 2).val) then 1 else 0))
    (hA : ∀ (c : Dev nD) (i : grid0.Coords) (arg1 : Memref sig .tc .vmem S2048x64 .f32) (harg1 : arg1.IsWhole)
      (arg2 : Memref sig .tc .vmem S64x16x16 .i32) (harg2 : arg2.IsWhole) (hc0 : cond0_0 i) (X : Vec Ideal S2048x64 .f32),
      out0_A_1 (F := Ideal) c i arg1 harg1 arg2 harg2 hc0 X = fun y => 0#32 + bc X y)
    (hB : ∀ (c : Dev nD) (i : grid0.Coords) (arg1 : Memref sig .tc .vmem S2048x64 .f32) (harg1 : arg1.IsWhole)
      (arg2 : Memref sig .tc .vmem S64x16x16 .i32) (harg2 : arg2.IsWhole) (hc0 : ¬cond0_0 i) (X : Vec Ideal S2048x64 .f32)
      (old : Vec Ideal S64x16x16 .i32),
      out0_B_1 (F := Ideal) c i arg1 harg1 arg2 harg2 hc0 X old = fun y => old y + bc X y)
    (c : Dev nD) : ∀ (n : ℕ) (hn : n < cfg0.N), outsAt0 (F := Ideal) m c n hn = accum m c (n + 1) := by
  intro n
  induction n with
  | zero =>
    intro hn
    refine ((outsAt0_A m c ⟨0, hn⟩ rfl).trans (hA ..)).trans ?_
    funext y
    show 0#32 + bc _ y = _
    rw [hbc]
    exact step_eq m c ⟨0, hn⟩ y 0#32 (by simp [Hist.cnt])
  | succ n ih =>
    intro hn
    have hN : cfg0.N = 392 := N_0
    have hB' : ¬(⟨n + 1, hn⟩ : Fin cfg0.N).val % 392 = 0 := by dsimp only; omega
    rw [outsAt0_B m c ⟨n + 1, hn⟩ hB', hB]
    funext y
    show outsAt0 (F := Ideal) m c n _ y + bc _ y = _
    rw [ih, hbc]
    exact step_eq m c ⟨n + 1, hn⟩ y _ rfl

/-- After point n the output's staging buffer holds the counts of the first n + 1 row blocks. -/
theorem outsAt_eq (c : Dev nD) (n : ℕ) (hn : n < cfg0.N) : outsAt0 (F := Ideal) m c n hn = accum m c (n + 1) :=
  outsAt_eq_of m Step.blockCount (fun _ _ => rfl) Step.outA Step.outB c n hn

end Cert.KernelIdeal.Acc

end
-- ==== Proof.KernelFinal.lean ====
/-
  The end of the kernel's run.

  The output array [64, 16, 16] has one block, the whole array, at block index 0 on every axis; it stays staged over
  the grid and is written back once, after the last of the 392 points.  After that point the staged block holds the
  counts of all 392 · 2048 = 802816 rows (the accumulation lemma), so the array ends holding them: entry (ch, h, l) is
  the number of rows whose channel-ch activation falls in bin 16 h + l.  The one host operation after the region
  reshapes the array to [64, 256]; entry (ch, k) of the reshape reads the array at (ch, k / 16, k % 16), the index with
  the same row-major position, and 16 (k / 16) + k % 16 = k: the result is the histogram table of the core's input
  read flat.  The input array is written by no operation and ends as launched.
-/
import proofs.«154004_j25563645346324_1_alg».proof.Proof.Gen.KernelIdeal.Frame
import proofs.«154004_j25563645346324_1_alg».proof.Proof.BinCount
import proofs.«154004_j25563645346324_1_alg».proof.Proof.KernelBlock
import proofs.«154004_j25563645346324_1_alg».proof.Proof.KernelAcc
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The last grid point, the only one after which the output block is written back. -/
abbrev tlast : Fin cfg0.N := ⟨391, by rw [show cfg0.N = 392 from N_0]; decide⟩

/-- The counts of all 392 row blocks, as contents of the output array. -/
abbrev result (c : Dev nD) : Buf (Elt Ideal) ((c : Thread nD τ).loc main_v1) := Acc.accum m c 392

/-- The one write-back, at the last point, writes the counts of all 392 row blocks: the output's one block, at block
    index 0 on every axis, is the whole array. -/
theorem flushed_eq (c : Dev nD) (t : Fin cfg0.N) (hf : (cfg0.win 1).flush t = true) :
    (dats (F := Ideal) m 0 c).flushed 1 t = ((cfg0.win 1).blk t).view.read (Elt Ideal) (result m c) := by
  have hN : cfg0.N = 392 := N_0
  have h391 : t.val = 391 := by have := (flush0_1 t).mp hf; have := t.isLt; omega
  obtain rfl : t = tlast := Fin.ext h391
  show (cfg0.win 1).cut (grid0.coords tlast) ((dats (F := Ideal) m 0 c).after 1 tlast) = _
  rw [after0_1, Acc.outsAt_eq]
  have hz' : (fun a => win0_1.index tlast a * main_v1.ty.shape.size a) = fun _ => 0 :=
    funext fun a => by fin_cases a <;> decide
  exact (Memref.read_access_unit_zero (Elt Ideal) main_v1 hz' (fun a => by rw [congrFun hz' a]; simp) (result m c)).symm

/-- So the output array ends holding the counts of all 392 row blocks: the last point's block covers it. -/
theorem final (c : Dev nD) : (dats (F := Ideal) m 0 c).arrAt 1 cfg0.N = result m c :=
  (dats (F := Ideal) m 0 c).arrAt_eq_of_cover 1 (result m c) (flushed_eq m c) fun i =>
    ⟨tlast, (flush0_1 tlast).mpr rfl, by
      show i ∈ ((View.whole main_v1).slice (win0_1.rect tlast)).set
      rw [View.set_slice_whole, Rect.mem_set_unit]
      intro a
      have h0 : (i 0 : Nat) < 64 := (i 0).isLt
      have h1 : (i 1 : Nat) < 16 := (i 1).isLt
      have h2 : (i 2 : Nat) < 16 := (i 2).isLt
      match a with
      | ⟨0, _⟩ =>
        show win0_1.index tlast 0 * win0_1.size 0 ≤ (i 0 : Nat)
          ∧ (i 0 : Nat) < win0_1.index tlast 0 * win0_1.size 0 + win0_1.xsize (grid0.coords tlast) 0
        rw [show win0_1.index tlast 0 * win0_1.size 0 = 0 from by decide +kernel,
          show win0_1.xsize (grid0.coords tlast) 0 = 64 from by decide +kernel]
        omega
      | ⟨1, _⟩ =>
        show win0_1.index tlast 1 * win0_1.size 1 ≤ (i 1 : Nat)
          ∧ (i 1 : Nat) < win0_1.index tlast 1 * win0_1.size 1 + win0_1.xsize (grid0.coords tlast) 1
        rw [show win0_1.index tlast 1 * win0_1.size 1 = 0 from by decide +kernel,
          show win0_1.xsize (grid0.coords tlast) 1 = 16 from by decide +kernel]
        omega
      | ⟨2, _⟩ =>
        show win0_1.index tlast 2 * win0_1.size 2 ≤ (i 2 : Nat)
          ∧ (i 2 : Nat) < win0_1.index tlast 2 * win0_1.size 2 + win0_1.xsize (grid0.coords tlast) 2
        rw [show win0_1.index tlast 2 * win0_1.size 2 = 0 from by decide +kernel,
          show win0_1.xsize (grid0.coords tlast) 2 = 16 from by decide +kernel]
        omega⟩

/-- The reshape of the counts [64, 16, 16] to [64, 256] is the histogram table: entry (ch, k) reads the counts at
    (ch, k / 16, k % 16), the index with the same row-major position, and 16 (k / 16) + k % 16 = k. -/
theorem table_eq (c : Dev nD) :
    shapeCast S64x256 (result m c) Gen.shapeCasts_S64x16x16_S64x256 = Hist.table (Blocks.xflat m c) := by
  funext j
  have h0 : (j 0).val < 64 := (j 0).isLt
  have h1 : (j 1).val < 256 := (j 1).isLt
  let k : S64x16x16.Idx := fun a => match a with
    | ⟨0, _⟩ => ⟨(j 0).val, h0⟩
    | ⟨1, _⟩ => ⟨(j 1).val / 16, by show (j 1).val / 16 < 16; omega⟩
    | ⟨2, _⟩ => ⟨(j 1).val % 16, by show (j 1).val % 16 < 16; omega⟩
  rw [shapeCast_apply _ _ j k (by
    rw [Shape.rowMajor_val_three, Shape.rowMajor_val_two]
    show ((j 0).val * 16 + (j 1).val / 16) * 16 + (j 1).val % 16 = (j 0).val * 256 + (j 1).val
    omega)]
  show BitVec.ofNat 32 (Hist.cnt (Blocks.xflat m c) (j 0).val (16 * ((j 1).val / 16) + (j 1).val % 16) (392 * 2048))
    = BitVec.ofNat 32 (Hist.cnt (Blocks.xflat m c) (j 0).val (j 1).val 802816)
  rw [show 16 * ((j 1).val / 16) + (j 1).val % 16 = (j 1).val by omega, show (392 * 2048 : ℕ) = 802816 by norm_num]

/-- The host operation after the region reshapes the output array, which the region leaves at the counts. -/
theorem W_main_v2 (c : Dev nD) :
    Pipeline.afterTail₀ cfgs (dats (F := Ideal) m) 0 (V0 m) [hostOps1] c main_v2
      = shapeCast S64x256 (result m c) Gen.shapeCasts_S64x16x16_S64x256 := by
  have hA : Pipeline.withArrays (cfgs 0).spec c (V0 m c) (fun w => (dats (F := Ideal) m 0 c).arrAt w (cfgs 0).N)
      (Proc.devRef .tc main_v1) = result m c :=
    (Pipeline.withArrays_arr spec0 launch0.win.arr_inj c _ _ 1).trans (final m c)
  unfold Pipeline.afterTail₀
  show StableHlo.after hostOps1 _ (Proc.devRef .tc main_v2) = _
  after_results
  rw [hA]
  rfl

/-- THE KERNEL'S RUN, READ: every weakly fair execution of @main ends with the reshaped result at the histogram table
    of the core's input read flat, and the input unchanged. -/
theorem run :
    θ_run (defs (F := Ideal)) (onTc (τ := τ) (main (F := Ideal))) ⟨m, fun _ => 0, ρ⟩ (fun r => ∀ c : Dev nD,
      r.2.mem ((c.tc : Thread nD τ).loc main_v2) = Hist.table (Blocks.xflat m c)
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans
        ((W_main_v2 m c).trans (table_eq m c)),
      ((h c).2 main_arg0 (Pipeline.mem_restRefs_of main_arg0 (by decide) (by decide))).trans
        (W_main_arg0 m (dats (F := Ideal) m) c)⟩)
    (run_main (F := Ideal) m ρ)

end Cert.KernelIdeal.Final

end
-- ==== Proof.lean ====
/-
  A per-channel 256-bin histogram of x : f32[64, 112, 112, 64], computed two ways, and x passed through.

  Both programs give every activation the same bin word  b = min(trunc(max(0, (x + 3) · s)), 255)  — the reference
  writes the offset as (−3) · 1, which is −3 — and b lies between 0 and 255 for every extended real x: the maximum
  with 0 makes the truncated value non-negative, the truncation clamps, the signed minimum caps.  No finiteness of
  the input is used.

  The reference adds 1 at position  b + 256 · channel  of a zero vector of length 16384 for each of the 51380224
  activations and reads the vector as 64 rows of 256: entry (ch, k) is the number of rows (batch-and-pixel positions)
  whose channel-ch activation falls in bin k, as a 32-bit word (RefHist).

  The kernel walks the 802816 rows in 392 blocks of 2048.  Per block and channel it contracts a one-hot encoding of the
  high nibbles of the bin words with a one-hot encoding of the low nibbles over the block's rows: entry (h, l) of the
  product is the number of rows of the block in bin 16 h + l, at most 2048, so its truncation to a word is exact
  (KernelChan).  It adds these counts into a [64, 16, 16] block that stays staged over the grid, zero-filled at the
  first block (KernelStep), so that after block n the block holds the counts of the first (n + 1) · 2048 rows
  (KernelAcc); the block is written back after the last one and reshaped to [64, 256], where entry (ch, k) reads
  (ch, k / 16, k % 16) (KernelFinal).  Word addition of per-block counts and word addition of ones give the same word:
  both tables are  BitVec.ofNat 32  of the same count (BinCount states it; Claims joins the two runs).

  The three frames are the generated ones (the reference's is its generated run with the results dropped); the ideal
  pass rewrote nothing, so the idealization claim is trivial.
-/
import proofs.«154004_j25563645346324_1_alg».proof.Defs
import proofs.«154004_j25563645346324_1_alg».proof.Proof.Claims
import proofs.«154004_j25563645346324_1_alg».proof.Proof.KernelFinal

noncomputable section

namespace Cert.Proof

theorem claim : Cert.Claim :=
  Cert.Proof.HistClaims.claim_of (fun m ρ => Cert.KernelIdeal.Final.run m ρ)

end Cert.Proof

end
